-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x26x93 : Shape := ⟨3, ![8192, 26, 93]⟩
abbrev S8192 : Shape := ⟨1, ![8192]⟩
abbrev S_ : Shape := ⟨0, ![]⟩
abbrev S8192x26x3x31 : Shape := ⟨4, ![8192, 26, 3, 31]⟩
abbrev S8192x26x3x10 : Shape := ⟨4, ![8192, 26, 3, 10]⟩
abbrev S8192x26x3x1 : Shape := ⟨4, ![8192, 26, 3, 1]⟩

class Facts : Prop where
  bcast_S_S8192x26x93 : S_.BroadcastsInDim S8192x26x93 (![] : Fin 0 → Fin S8192x26x93.rank)
  reducesTo_S8192x26x93_S_d0_1_2 : S8192x26x93.ReducesTo [0, 1, 2] S_
  h_S_ : 0 < S_.numel
  bcast_S_S8192 : S_.BroadcastsInDim S8192 (![] : Fin 0 → Fin S8192.rank)
  reducesTo_S8192_S_d0 : S8192.ReducesTo [0] S_
  shapeCasts_S8192x26x93_S8192x26x3x31 : S8192x26x93.ShapeCasts S8192x26x3x31
  slices_S8192x26x3x31_S8192x26x3x10_0_0_0_20 : S8192x26x3x31.Slices ![0, 0, 0, 20] S8192x26x3x10
  bcast_S_S8192x26x3x10 : S_.BroadcastsInDim S8192x26x3x10 (![] : Fin 0 → Fin S8192x26x3x10.rank)
  reducesTo_S8192x26x3x10_S_d0_1_2_3 : S8192x26x3x10.ReducesTo [0, 1, 2, 3] S_
  slices_S8192x26x3x31_S8192x26x3x1_0_0_0_30 : S8192x26x3x31.Slices ![0, 0, 0, 30] S8192x26x3x1
  bcast_S_S8192x26x3x1 : S_.BroadcastsInDim S8192x26x3x1 (![] : Fin 0 → Fin S8192x26x3x1.rank)
  reducesTo_S8192x26x3x1_S_d0_1_2_3 : S8192x26x3x1.ReducesTo [0, 1, 2, 3] S_

variable [Facts]

def fn_part3 {F : FTy → Type} [FloatOps F] (main_arg0 : FVec F S8192x26x93 .f32) (main_v46 : IVec S_ 1) (main_v50 : FVec F S8192x26x3x1 .f32) (main_cst_18 : FVec F S_ .f32) : IVec S_ 1 :=
  let main_v51 : FVec F S8192x26x3x1 .f32 := broadcastInDim S8192x26x3x1 ![] bcast_S_S8192x26x3x1 main_cst_18
  let main_v52 : IVec S8192x26x3x1 1 := cmpf .ogt main_v50 main_v51
  let main_c_19 : IVec S_ 1 := constantI S_ 1 1#1
  let main_v53 : IVec S_ 1 := (fun x v => Host.reduce IntOp.andi x v reducesTo_S8192x26x3x1_S_d0_1_2_3 h_S_) main_v52 main_c_19
  let main_v54 : IVec S_ 1 := andi main_v46 main_v53
  let main_v55 : FVec F S8192x26x3x31 .f32 := shapeCast S8192x26x3x31 main_arg0 shapeCasts_S8192x26x93_S8192x26x3x31
  let main_v56 : FVec F S8192x26x3x1 .f32 := (extractStridedSlice S8192x26x3x1 ![0, 0, 0, 30] · slices_S8192x26x3x31_S8192x26x3x1_0_0_0_30) main_v55
  let main_cst_20 : FVec F S_ .f32 := constant S_ .f32 0x3F800000#32
  let main_v57 : FVec F S8192x26x3x1 .f32 := broadcastInDim S8192x26x3x1 ![] bcast_S_S8192x26x3x1 main_cst_20
  let main_v58 : FVec F S8192x26x3x1 .f32 := subf main_v57 main_v56
  let main_cst_21 : FVec F S_ .f32 := constant S_ .f32 0x3089705F#32
  let main_v59 : FVec F S8192x26x3x1 .f32 := broadcastInDim S8192x26x3x1 ![] bcast_S_S8192x26x3x1 main_cst_21
  let main_v60 : FVec F S8192x26x3x1 .f32 := addf main_v58 main_v59
  let main_cst_22 : FVec F S_ .f32 := constant S_ .f32 0x00000000#32
  let main_v61 : FVec F S8192x26x3x1 .f32 := broadcastInDim S8192x26x3x1 ![] bcast_S_S8192x26x3x1 main_cst_22
  let main_v62 : IVec S8192x26x3x1 1 := cmpf .ogt main_v60 main_v61
  let main_c_23 : IVec S_ 1 := constantI S_ 1 1#1
  let main_v63 : IVec S_ 1 := (fun x v => Host.reduce IntOp.andi x v reducesTo_S8192x26x3x1_S_d0_1_2_3 h_S_) main_v62 main_c_23
  let main_v64 : IVec S_ 1 := andi main_v54 main_v63
  main_v64

def fn_part2 {F : FTy → Type} [FloatOps F] (main_arg0 : FVec F S8192x26x93 .f32) (main_v28 : IVec S_ 1) (main_v32 : FVec F S8192x26x3x10 .f32) (main_v33 : FVec F S8192x26x3x10 .f32) : IVec S_ 1 :=
  let main_v34 : IVec S8192x26x3x10 1 := cmpf .ogt main_v32 main_v33
  let main_c_12 : IVec S_ 1 := constantI S_ 1 1#1
  let main_v35 : IVec S_ 1 := (fun x v => Host.reduce IntOp.andi x v reducesTo_S8192x26x3x10_S_d0_1_2_3 h_S_) main_v34 main_c_12
  let main_v36 : IVec S_ 1 := andi main_v28 main_v35
  let main_v37 : FVec F S8192x26x3x31 .f32 := shapeCast S8192x26x3x31 main_arg0 shapeCasts_S8192x26x93_S8192x26x3x31
  let main_v38 : FVec F S8192x26x3x10 .f32 := (extractStridedSlice S8192x26x3x10 ![0, 0, 0, 20] · slices_S8192x26x3x31_S8192x26x3x10_0_0_0_20) main_v37
  let main_cst_13 : FVec F S_ .f32 := constant S_ .f32 0x3F800000#32
  let main_v39 : FVec F S8192x26x3x10 .f32 := broadcastInDim S8192x26x3x10 ![] bcast_S_S8192x26x3x10 main_cst_13
  let main_v40 : FVec F S8192x26x3x10 .f32 := subf main_v39 main_v38
  let main_cst_14 : FVec F S_ .f32 := constant S_ .f32 0x3089705F#32
  let main_v41 : FVec F S8192x26x3x10 .f32 := broadcastInDim S8192x26x3x10 ![] bcast_S_S8192x26x3x10 main_cst_14
  let main_v42 : FVec F S8192x26x3x10 .f32 := addf main_v40 main_v41
  let main_cst_15 : FVec F S_ .f32 := constant S_ .f32 0x00000000#32
  let main_v43 : FVec F S8192x26x3x10 .f32 := broadcastInDim S8192x26x3x10 ![] bcast_S_S8192x26x3x10 main_cst_15
  let main_v44 : IVec S8192x26x3x10 1 := cmpf .ogt main_v42 main_v43
  let main_c_16 : IVec S_ 1 := constantI S_ 1 1#1
  let main_v45 : IVec S_ 1 := (fun x v => Host.reduce IntOp.andi x v reducesTo_S8192x26x3x10_S_d0_1_2_3 h_S_) main_v44 main_c_16
  let main_v46 : IVec S_ 1 := andi main_v36 main_v45
  let main_v47 : FVec F S8192x26x3x31 .f32 := shapeCast S8192x26x3x31 main_arg0 shapeCasts_S8192x26x93_S8192x26x3x31
  let main_v48 : FVec F S8192x26x3x1 .f32 := (extractStridedSlice S8192x26x3x1 ![0, 0, 0, 30] · slices_S8192x26x3x31_S8192x26x3x1_0_0_0_30) main_v47
  let main_cst_17 : FVec F S_ .f32 := constant S_ .f32 0x3089705F#32
  let main_v49 : FVec F S8192x26x3x1 .f32 := broadcastInDim S8192x26x3x1 ![] bcast_S_S8192x26x3x1 main_cst_17
  let main_v50 : FVec F S8192x26x3x1 .f32 := addf main_v48 main_v49
  let main_cst_18 : FVec F S_ .f32 := constant S_ .f32 0x00000000#32
  fn_part3 (F := F) main_arg0 main_v46 main_v50 main_cst_18

def fn_part1 {F : FTy → Type} [FloatOps F] (main_arg0 : FVec F S8192x26x93 .f32) (main_arg4 : FVec F S8192 .f32) (main_arg5 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192x26x3x31 .f32 := shapeCast S8192x26x3x31 main_arg0 shapeCasts_S8192x26x93_S8192x26x3x31
  let main_v30 : FVec F S8192x26x3x10 .f32 := (extractStridedSlice S8192x26x3x10 ![0, 0, 0, 20] · slices_S8192x26x3x31_S8192x26x3x10_0_0_0_20) main_v29
  let main_cst_10 : FVec F S_ .f32 := constant S_ .f32 0x3089705F#32
  let main_v31 : FVec F S8192x26x3x10 .f32 := broadcastInDim S8192x26x3x10 ![] bcast_S_S8192x26x3x10 main_cst_10
  let main_v32 : FVec F S8192x26x3x10 .f32 := addf main_v30 main_v31
  let main_cst_11 : FVec F S_ .f32 := constant S_ .f32 0x00000000#32
  let main_v33 : FVec F S8192x26x3x10 .f32 := broadcastInDim S8192x26x3x10 ![] bcast_S_S8192x26x3x10 main_cst_11
  fn_part2 (F := F) main_arg0 main_v28 main_v32 main_v33

def fn {F : FTy → Type} [FloatOps F] (main_arg0 : FVec F S8192x26x93 .f32) (main_arg1 : FVec F S8192x26x93 .f32) (main_arg2 : FVec F S8192 .f32) (main_arg3 : FVec F S8192 .f32) (main_arg4 : FVec F S8192 .f32) (main_arg5 : FVec F S8192 .f32) : IVec S_ 1 :=
  let main_v0 : FVec F S8192x26x93 .f32 := Host.absf main_arg0
  let main_cst : FVec F S_ .f32 := constant S_ .f32 0x7F800000#32
  let main_v1 : FVec F S8192x26x93 .f32 := broadcastInDim S8192x26x93 ![] bcast_S_S8192x26x93 main_cst
  let main_v2 : IVec S8192x26x93 1 := cmpf .olt main_v0 main_v1
  let main_c : IVec S_ 1 := constantI S_ 1 1#1
  let main_v3 : IVec S_ 1 := (fun x v => Host.reduce IntOp.andi x v reducesTo_S8192x26x93_S_d0_1_2 h_S_) main_v2 main_c
  let main_v4 : FVec F S8192x26x93 .f32 := Host.absf main_arg1
  let main_cst_0 : FVec F S_ .f32 := constant S_ .f32 0x7F800000#32
  let main_v5 : FVec F S8192x26x93 .f32 := broadcastInDim S8192x26x93 ![] bcast_S_S8192x26x93 main_cst_0
  let main_v6 : IVec S8192x26x93 1 := cmpf .olt main_v4 main_v5
  let main_c_1 : IVec S_ 1 := constantI S_ 1 1#1
  let main_v7 : IVec S_ 1 := (fun x v => Host.reduce IntOp.andi x v reducesTo_S8192x26x93_S_d0_1_2 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg0 main_arg4 main_arg5 main_v13 main_v16
-- ==== Kernel.lean ====
abbrev S8192x26x93 : Shape := ⟨3, ![8192, 26, 93]⟩
abbrev S8192 : Shape := ⟨1, ![8192]⟩
abbrev S1x1 : Shape := ⟨2, ![1, 1]⟩
abbrev S128x26x93 : Shape := ⟨3, ![128, 26, 93]⟩
abbrev S128x26x20 : Shape := ⟨3, ![128, 26, 20]⟩
abbrev S128x26x10 : Shape := ⟨3, ![128, 26, 10]⟩
abbrev S128x26x1 : Shape := ⟨3, ![128, 26, 1]⟩
abbrev S128x26 : Shape := ⟨2, ![128, 26]⟩
abbrev S128x1 : Shape := ⟨2, ![128, 1]⟩
abbrev S128x1x1 : Shape := ⟨3, ![128, 1, 1]⟩
abbrev S1x1x1 : Shape := ⟨3, ![1, 1, 1]⟩
abbrev S_ : Shape := ⟨0, ![]⟩

abbrev nBuf : Space → Nat
  | .hbm => 16
  | .vmem => 7
  | .smem => 0
  | _ => 0

abbrev bufTy : (tb : Table) → Fin (tcTables nBuf tb) → BufTy
  | .hbm, ⟨0, _⟩ => ⟨S8192x26x93, .f32⟩
  | .hbm, ⟨1, _⟩ => ⟨S8192x26x93, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S128x26x93, .f32⟩
  | .local _ .vmem, ⟨1, _⟩ => ⟨S128x26x93, .f32⟩
  | .local _ .vmem, ⟨2, _⟩ => ⟨S128x26x93, .f32⟩
  | .local _ .vmem, ⟨3, _⟩ => ⟨S128x26x93, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S8192x26x93, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x26x93 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x26x93 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S128x26x93_S128x26x93_0_0_0 : ∀ a, (![0, 0, 0] : Fin 3 → Nat) a + S128x26x93.size a ≤ S128x26x93.size a
  h_S128x26x93 : 0 < S128x26x93.numel
  slices_S128x26x93_o0_0_0_S128x26x20 : S128x26x93.Slices ![0, 0, 0] S128x26x20
  slices_S128x26x93_o0_0_20_S128x26x10 : S128x26x93.Slices ![0, 0, 20] S128x26x10
  slices_S128x26x93_o0_0_30_S128x26x1 : S128x26x93.Slices ![0, 0, 30] S128x26x1
  reduces_S128x26x10_S128x26 : S128x26x10.Reduces [2] S128x26
  shapeCasts_S128x26_S128x26x1 : S128x26.ShapeCasts S128x26x1
  reduces_S128x26x1_S128x1 : S128x26x1.Reduces [1] S128x1
  shapeCasts_S128x1_S128x1x1 : S128x1.ShapeCasts S128x1x1
  reduces_S128x1x1_S1x1 : S128x1x1.Reduces [0] S1x1
  shapeCasts_S1x1_S1x1x1 : S1x1.ShapeCasts S1x1x1
  shapeCasts_S1x1x1_S1x1 : S1x1x1.ShapeCasts S1x1
  reduces_S128x26x1_S128x26 : S128x26x1.Reduces [2] S128x26
  slices_S128x26x20_o0_0_0_S128x26x10 : S128x26x20.Slices ![0, 0, 0] S128x26x10
  slices_S128x26x20_o0_0_10_S128x26x10 : S128x26x20.Slices ![0, 0, 10] S128x26x10
  broadcasts_S128x26x1_S128x26x10 : S128x26x1.Broadcasts S128x26x10
  slices_S128x26x93_o0_0_31_S128x26x20 : S128x26x93.Slices ![0, 0, 31] S128x26x20
  slices_S128x26x93_o0_0_51_S128x26x10 : S128x26x93.Slices ![0, 0, 51] S128x26x10
  slices_S128x26x93_o0_0_61_S128x26x1 : S128x26x93.Slices ![0, 0, 61] S128x26x1
  slices_S128x26x93_o0_0_62_S128x26x20 : S128x26x93.Slices ![0, 0, 62] S128x26x20
  slices_S128x26x93_o0_0_82_S128x26x10 : S128x26x93.Slices ![0, 0, 82] S128x26x10
  slices_S128x26x93_o0_0_92_S128x26x1 : S128x26x93.Slices ![0, 0, 92] S128x26x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x26x93.size a ≤ S8192x26x93.size a
  hwx0_0 : ∀ i : grid0.Coords, EltTy.bits .f32 = 32 ∨ (Rect.block (s := S8192x26x93) S128x26x93.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x26x93.size a ≤ S8192x26x93.size a
  hwx0_1 : ∀ i : grid0.Coords, EltTy.bits .f32 = 32 ∨ (Rect.block (s := S8192x26x93) S128x26x93.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S128x26x93.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x26x93.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x26x93 : Shape := ⟨3, ![8192, 26, 93]⟩
abbrev S8192 : Shape := ⟨1, ![8192]⟩
abbrev S8192x26x3x31 : Shape := ⟨4, ![8192, 26, 3, 31]⟩
abbrev S8192x26x3x1 : Shape := ⟨4, ![8192, 26, 3, 1]⟩
abbrev S8192x26x3x20 : Shape := ⟨4, ![8192, 26, 3, 20]⟩
abbrev S8192x26x3x10 : Shape := ⟨4, ![8192, 26, 3, 10]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S8192x26x93, .f32⟩
  | .hbm, ⟨1, _⟩ => ⟨S8192x26x93, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192x26x3x31, .f32⟩
  | .hbm, ⟨7, _⟩ => ⟨S8192x26x3x31, .f32⟩
  | .hbm, ⟨8, _⟩ => ⟨S8192x26x3x1, .f32⟩
  | .hbm, ⟨9, _⟩ => ⟨S8192x26x3x20, .f32⟩
  | .hbm, ⟨10, _⟩ => ⟨S8192x26x3x10, .f32⟩
  | .hbm, ⟨11, _⟩ => ⟨S8192x26x3x1, .f32⟩
  | .hbm, ⟨12, _⟩ => ⟨S8192x26x3x20, .f32⟩
  | .hbm, ⟨13, _⟩ => ⟨S8192x26x3x10, .f32⟩
  | .hbm, ⟨14, _⟩ => ⟨S_, .f32⟩
  | .hbm, ⟨15, _⟩ => ⟨S8192x26x3x10, .f32⟩
  | .hbm, ⟨16, _⟩ => ⟨S8192x26x3x10, .f32⟩
  | .hbm, ⟨17, _⟩ => ⟨S8192x26x3x10, .f32⟩
  | .hbm, ⟨18, _⟩ => ⟨S8192x26x3x10, .f32⟩
  | .hbm, ⟨19, _⟩ => ⟨S_, .f32⟩
  | .hbm, ⟨20, _⟩ => ⟨S8192x26x3x10, .f32⟩
  | .hbm, ⟨21, _⟩ => ⟨S8192x26x3x10, .f32⟩
  | .hbm, ⟨22, _⟩ => ⟨S_, .f32⟩
  | .hbm, ⟨23, _⟩ => ⟨S8192x26x3x10, .f32⟩
  | .hbm, ⟨24, _⟩ => ⟨S8192x26x3x10, .f32⟩
  | .hbm, ⟨25, _⟩ => ⟨S_, .f32⟩
  | .hbm, ⟨26, _⟩ => ⟨S8192x26x3x10, .f32⟩
  | .hbm, ⟨27, _⟩ => ⟨S8192x26x3x10, .f32⟩
  | .hbm, ⟨28, _⟩ => ⟨S_, .f32⟩
  | .hbm, ⟨29, _⟩ => ⟨S8192x26x3x10, .f32⟩
  | .hbm, ⟨30, _⟩ => ⟨S8192x26x3x10, .f32⟩
  | .hbm, ⟨31, _⟩ => ⟨S8192x26x3x10, .f32⟩
  | .hbm, ⟨32, _⟩ => ⟨S8192x26x3x10, .f32⟩
  | .hbm, ⟨33, _⟩ => ⟨S8192x26x3x10, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x26x3x1, .f32⟩
  | .hbm, ⟨41, _⟩ => ⟨S8192x26x3x1, .f32⟩
  | .hbm, ⟨42, _⟩ => ⟨S8192x26x3x1, .f32⟩
  | .hbm, ⟨43, _⟩ => ⟨S8192x26x3x1, .f32⟩
  | .hbm, ⟨44, _⟩ => ⟨S_, .f32⟩
  | .hbm, ⟨45, _⟩ => ⟨S8192x26x3x1, .f32⟩
  | .hbm, ⟨46, _⟩ => ⟨S8192x26x3x1, .f32⟩
  | .hbm, ⟨47, _⟩ => ⟨S_, .f32⟩
  | .hbm, ⟨48, _⟩ => ⟨S8192x26x3x1, .f32⟩
  | .hbm, ⟨49, _⟩ => ⟨S8192x26x3x1, .f32⟩
  | .hbm, ⟨50, _⟩ => ⟨S_, .f32⟩
  | .hbm, ⟨51, _⟩ => ⟨S8192x26x3x1, .f32⟩
  | .hbm, ⟨52, _⟩ => ⟨S8192x26x3x1, .f32⟩
  | .hbm, ⟨53, _⟩ => ⟨S8192x26x3x1, .f32⟩
  | .hbm, ⟨54, _⟩ => ⟨S8192x26x3x1, .f32⟩
  | .hbm, ⟨55, _⟩ => ⟨S8192x26x3x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8192x26x3x20, .f32⟩
  | .hbm, ⟨60, _⟩ => ⟨S8192x26x3x20, .f32⟩
  | .hbm, ⟨61, _⟩ => ⟨S8192x26x3x20, .f32⟩
  | .hbm, ⟨62, _⟩ => ⟨S8192x26x3x20, .f32⟩
  | .hbm, ⟨63, _⟩ => ⟨S8192x26x3x20, .f32⟩
  | .hbm, ⟨64, _⟩ => ⟨S8192x26x3x20, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S8192x26x93, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  shapeCasts_S8192x26x93_S8192x26x3x31 : S8192x26x93.ShapeCasts S8192x26x3x31
  slices_S8192x26x3x31_S8192x26x3x1_0_0_0_30 : S8192x26x3x31.Slices ![0, 0, 0, 30] S8192x26x3x1
  slices_S8192x26x3x31_S8192x26x3x20_0_0_0_0 : S8192x26x3x31.Slices ![0, 0, 0, 0] S8192x26x3x20
  slices_S8192x26x3x31_S8192x26x3x10_0_0_0_20 : S8192x26x3x31.Slices ![0, 0, 0, 20] S8192x26x3x10
  bcast_S_S8192x26x3x10 : S_.BroadcastsInDim S8192x26x3x10 (![] : Fin 0 → Fin S8192x26x3x10.rank)
  reducesTo_S8192x26x3x10_S_d0_1_2_3 : S8192x26x3x10.ReducesTo [0, 1, 2, 3] S_
  h_S_ : 0 < S_.numel
  bcast_S_S8192x26x3x1 : S_.BroadcastsInDim S8192x26x3x1 (![] : Fin 0 → Fin S8192x26x3x1.rank)
  reducesTo_S8192x26x3x1_S_d0_1_2_3 : S8192x26x3x1.ReducesTo [0, 1, 2, 3] S_
  concatenates_S8192x26x3x10_S8192x26x3x10_S8192x26x3x20_d3 : Shape.Concatenates [S8192x26x3x10, S8192x26x3x10] S8192x26x3x20 3
  bcast_S8192x26x3x1_S8192x26x3x20_0_1_2_3 : S8192x26x3x1.BroadcastsInDim S8192x26x3x20 (![0, 1, 2, 3] : Fin 4 → Fin S8192x26x3x20.rank)
  reducesTo_S8192x26x3x20_S_d0_1_2_3 : S8192x26x3x20.ReducesTo [0, 1, 2, 3] S_

variable [Facts₀]

class Facts : Prop extends Facts₀ where

variable [Facts]
-- ==== Proof.KernelPieces.lean ====
/-
  What one grid point of the tiled program does to its three one-entry accumulators.

  Each accumulator's buffer is overwritten once per point by `old + (the tile's value)`; at the first point the
  buffer is first set to zero and that zero is what is read back.  The tile's value is a pure function of the two
  input tiles; it is written here as the composition of the body's arithmetic pieces, for any reading of the floats.
-/
import proofs.«103145_j64630667870263_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The zero block the first point stores. -/
abbrev zero : Vec F S1x1 .f32 := broadcast S1x1 (Scalar.ofBits .f32 0x00000000#32)

/-- The visibility accumulator after a point: the old value plus the tile's ((0 − S₀) − S₁) − S₂. -/
def step2 (x0 x1 : Vec F S128x26x93 .f32) (xo : Vec F S1x1 .f32) : Vec F S1x1 .f32 :=
  k0_pay37 (k0_pay34 x0 x1 (k0_pay23 (k0_pay12 x0 x1) (k0_pay18 x0) (k0_pay19 x1) (k0_pay22 x0 x1))) xo

/-- The class accumulator after a point. -/
def step3 (x0 x1 : Vec F S128x26x93 .f32) (xo : Vec F S1x1 .f32) : Vec F S1x1 .f32 :=
  k0_pay38 (k0_pay24 (k0_pay14 k0_pay5 (k0_pay10 x0) (k0_pay11 x1) k0_pay13) (k0_pay20 x0) (k0_pay21 x1)) (k0_pay32 x0)
    (k0_pay33 x1) (k0_pay35 x0 x1) (FloatOps.ofBits .f32 0x3F800000#32) xo

/-- The offset accumulator after a point. -/
def step4 (x0 x1 : Vec F S128x26x93 .f32) (xo : Vec F S1x1 .f32) : Vec F S1x1 .f32 :=
  k0_pay1
    (k0_pay36
      (k0_pay28 (k0_pay15 k0_pay6 (k0_pay7 x0) (k0_pay8 x1) (k0_pay9 x1) (k0_pay11 x1)) (k0_pay19 x1) (k0_pay21 x1)
        (k0_pay26 (k0_pay16 x0) (k0_pay17 x1)) (k0_pay27 (k0_pay16 x0) (k0_pay17 x1) (k0_pay19 x1) (k0_pay21 x1)))
      (k0_pay29 x0) (k0_pay30 x1) (k0_pay31 x1) (k0_pay33 x1))
    xo

/-- After a later grid point, output 2's buffer, which held `xo2`, holds `step2 x0 x1 xo2`: the body's one covering store. -/
theorem out_B_2 (c : Dev nD) (i : grid0.Coords) (a1 : Memref sig .tc .vmem S128x26x93 .f32) (h1 : a1.IsWhole) (a2 : Memref sig .tc .vmem S128x26x93 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc : ¬cond0_0 i) (x0 x1 : Vec F S128x26x93 .f32) (xo2 xo3 xo4 : Vec F S1x1 .f32) :
    out0_B_2 c i a1 h1 a2 h2 a3 h3 a4 h4 a5 h5 hc x0 x1 xo2 xo3 xo4 = step2 x0 x1 xo2 := by
  unfold out0_B_2
  rw [View.read_writes_eq_canon _ _ _ (cover0_B_2 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, h4.read_unread, h5.read_unread, View.ld_unit_zero (S := S1x1) hz, View.ld_unit_zero (S := S128x26x93) hz3]
  rfl

/-- After a later grid point, output 3's buffer, which held `xo3`, holds `step3 x0 x1 xo3`: the body's one covering store. -/
theorem out_B_3 (c : Dev nD) (i : grid0.Coords) (a1 : Memref sig .tc .vmem S128x26x93 .f32) (h1 : a1.IsWhole) (a2 : Memref sig .tc .vmem S128x26x93 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc : ¬cond0_0 i) (x0 x1 : Vec F S128x26x93 .f32) (xo2 xo3 xo4 : Vec F S1x1 .f32) :
    out0_B_3 c i a1 h1 a2 h2 a3 h3 a4 h4 a5 h5 hc x0 x1 xo2 xo3 xo4 = step3 x0 x1 xo3 := by
  unfold out0_B_3
  rw [View.read_writes_eq_canon _ _ _ (cover0_B_3 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, h4.read_unread, h5.read_unread, View.ld_unit_zero (S := S1x1) hz, View.ld_unit_zero (S := S128x26x93) hz3]
  rfl

/-- After a later grid point, output 4's buffer, which held `xo4`, holds `step4 x0 x1 xo4`: the body's one covering store. -/
theorem out_B_4 (c : Dev nD) (i : grid0.Coords) (a1 : Memref sig .tc .vmem S128x26x93 .f32) (h1 : a1.IsWhole) (a2 : Memref sig .tc .vmem S128x26x93 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc : ¬cond0_0 i) (x0 x1 : Vec F S128x26x93 .f32) (xo2 xo3 xo4 : Vec F S1x1 .f32) :
    out0_B_4 c i a1 h1 a2 h2 a3 h3 a4 h4 a5 h5 hc x0 x1 xo2 xo3 xo4 = step4 x0 x1 xo4 := by
  unfold out0_B_4
  rw [View.read_writes_eq_canon _ _ _ (cover0_B_4 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, h4.read_unread, h5.read_unread, View.ld_unit_zero (S := S1x1) hz, View.ld_unit_zero (S := S128x26x93) hz3]
  rfl

/-- After the first grid point, output 2's buffer holds `step2 x0 x1 zero`: the zero block is stored, read back, and the
    tile's value added to it. -/
theorem out_A_2 (c : Dev nD) (i : grid0.Coords) (a1 : Memref sig .tc .vmem S128x26x93 .f32) (h1 : a1.IsWhole) (a2 : Memref sig .tc .vmem S128x26x93 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc : cond0_0 i) (x0 x1 : Vec F S128x26x93 .f32) :
    out0_A_2 c i a1 h1 a2 h2 a3 h3 a4 h4 a5 h5 hc x0 x1 = step2 x0 x1 zero := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1x1) hz, View.ld_unit_zero (S := S128x26x93) hz3]
  rfl

/-- After the first grid point, output 3's buffer holds `step3 x0 x1 zero`: the zero block is stored, read back, and the
    tile's value added to it. -/
theorem out_A_3 (c : Dev nD) (i : grid0.Coords) (a1 : Memref sig .tc .vmem S128x26x93 .f32) (h1 : a1.IsWhole) (a2 : Memref sig .tc .vmem S128x26x93 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc : cond0_0 i) (x0 x1 : Vec F S128x26x93 .f32) :
    out0_A_3 c i a1 h1 a2 h2 a3 h3 a4 h4 a5 h5 hc x0 x1 = step3 x0 x1 zero := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1x1) hz, View.ld_unit_zero (S := S128x26x93) hz3]
  rfl

/-- After the first grid point, output 4's buffer holds `step4 x0 x1 zero`: the zero block is stored, read back, and the
    tile's value added to it. -/
theorem out_A_4 (c : Dev nD) (i : grid0.Coords) (a1 : Memref sig .tc .vmem S128x26x93 .f32) (h1 : a1.IsWhole) (a2 : Memref sig .tc .vmem S128x26x93 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc : cond0_0 i) (x0 x1 : Vec F S128x26x93 .f32) :
    out0_A_4 c i a1 h1 a2 h2 a3 h3 a4 h4 a5 h5 hc x0 x1 = step4 x0 x1 zero := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1x1) hz, View.ld_unit_zero (S := S128x26x93) hz3]
  rfl

end Cert.KernelIdeal.Pieces

end
-- ==== Proof.KernelValue.lean ====
/-
  The tiled program's three accumulators over the whole grid, for any reading of the floats.

  After grid point n each accumulator holds the value obtained by starting from zero and applying the point's
  step (old ↦ old + the tile's value) at points 0, 1, …, n in order; this is proved by induction on the point.  Each
  accumulator's one-entry array is written back once, after the last point, so it ends holding the value after point 63.
-/
import proofs.«103145_j64630667870263_1_alg».proof.Proof.KernelPieces

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces

variable {F : FTy → Type} [FloatOps F]
variable (m : (ℓ : Loc nD τ sig) → Buf (Elt F) ℓ) (ρ : Dev nD → PrngReg)

/-- The two input tiles at point t. -/
abbrev tile0 (c : Dev nD) (t : Fin cfg0.N) : Vec F S128x26x93 .f32 := iblk m c 0 t
abbrev tile1 (c : Dev nD) (t : Fin cfg0.N) : Vec F S128x26x93 .f32 := iblk m c 1 t

/-- The three running values after point n: from zero, one step per point, in order. -/
def chain (c : Dev nD) : (n : ℕ) → n < cfg0.N → Vec F S1x1 .f32 × Vec F S1x1 .f32 × Vec F S1x1 .f32
  | 0, h => (step2 (tile0 m c ⟨0, h⟩) (tile1 m c ⟨0, h⟩) zero, step3 (tile0 m c ⟨0, h⟩) (tile1 m c ⟨0, h⟩) zero,
      step4 (tile0 m c ⟨0, h⟩) (tile1 m c ⟨0, h⟩) zero)
  | n + 1, h =>
    (step2 (tile0 m c ⟨n + 1, h⟩) (tile1 m c ⟨n + 1, h⟩) (chain c n (Nat.lt_of_succ_lt h)).1,
      step3 (tile0 m c ⟨n + 1, h⟩) (tile1 m c ⟨n + 1, h⟩) (chain c n (Nat.lt_of_succ_lt h)).2.1,
      step4 (tile0 m c ⟨n + 1, h⟩) (tile1 m c ⟨n + 1, h⟩) (chain c n (Nat.lt_of_succ_lt h)).2.2)

/-- What the accumulators' buffers hold after point n is the running triple, by induction on the point. -/
theorem outsAt_eq (c : Dev nD) : ∀ (n : ℕ) (h : n < cfg0.N), outsAt0 m c n h = chain m c n h
  | 0, h => by
    rw [outsAt0_A m c ⟨0, h⟩ rfl, out_A_2, out_A_3, out_A_4]
    rfl
  | n + 1, h => by
    have hN : cfg0.N = 64 := N_0
    have hB : ¬(⟨n + 1, h⟩ : Fin cfg0.N).val % 64 = 0 := by dsimp only; omega
    rw [outsAt0_B m c ⟨n + 1, h⟩ hB, out_B_2, out_B_3, out_B_4]
    show (step2 _ _ (outsAt0 m c n _).1, step3 _ _ (outsAt0 m c n _).2.1, step4 _ _ (outsAt0 m c n _).2.2) = _
    rw [outsAt_eq c n]
    rfl

/-- The last grid point. -/
abbrev last : Fin cfg0.N := ⟨63, by rw [show cfg0.N = 64 from N_0]; decide⟩

/-- What output 2's array holds at the end: the running value after the last point. -/
abbrev result2 (c : Dev nD) : Buf (Elt F) ((c : Thread nD τ).loc main_v0_0) := (chain m c 63 (by rw [show cfg0.N = 64 from N_0]; decide)).1

/-- The one write-back, at the last point, writes it: the block is the whole one-entry array. -/
theorem flushed_eq2 (c : Dev nD) (t : Fin cfg0.N) (hf : (cfg0.win 2).flush t = true) :
    (dats m 0 c).flushed 2 t = ((cfg0.win 2).blk t).view.read (Elt F) (result2 m c) := by
  have hN : cfg0.N = 64 := N_0
  have h3 : t.val = 63 := by have := (flush0_2 t).mp hf; have := t.isLt; omega
  obtain rfl : t = last := Fin.ext h3
  show (cfg0.win 2).cut (grid0.coords last) ((dats m 0 c).after 2 last) = _
  rw [after0_2, outsAt_eq]
  have hz' : (fun a => win0_2.index last a * main_v0_0.ty.shape.size a) = fun _ => 0 := funext fun a => by fin_cases a <;> decide
  exact (Memref.read_access_unit_zero (Elt F) main_v0_0 hz' (fun a => by rw [congrFun hz' a]; simp) (result2 m c)).symm

/-- So the array ends holding the running value after the last point: that point's block covers it. -/
theorem final2 (c : Dev nD) : (dats m 0 c).arrAt 2 cfg0.N = result2 m c :=
  (dats m 0 c).arrAt_eq_of_cover 2 (result2 m c) (flushed_eq2 m c) fun i =>
    ⟨last, (flush0_2 last).mpr rfl, by
      show i ∈ ((View.whole main_v0_0).slice (win0_2.rect last)).set
      rw [View.set_slice_whole, Rect.mem_set_unit]
      intro a
      have h0 : (i 0 : Nat) < 1 := (i 0).isLt
      have h1 : (i 1 : Nat) < 1 := (i 1).isLt
      match a with
      | ⟨0, _⟩ => show win0_2.index last 0 * win0_2.size 0 ≤ (i 0 : Nat) ∧ (i 0 : Nat) < win0_2.index last 0 * win0_2.size 0 + win0_2.xsize (grid0.coords last) 0
                  rw [show win0_2.index last 0 * win0_2.size 0 = 0 from by decide +kernel, show win0_2.xsize (grid0.coords last) 0 = 1 from by decide +kernel]; omega
      | ⟨1, _⟩ => show win0_2.index last 1 * win0_2.size 1 ≤ (i 1 : Nat) ∧ (i 1 : Nat) < win0_2.index last 1 * win0_2.size 1 + win0_2.xsize (grid0.coords last) 1
                  rw [show win0_2.index last 1 * win0_2.size 1 = 0 from by decide +kernel, show win0_2.xsize (grid0.coords last) 1 = 1 from by decide +kernel]; omega⟩

/-- What output 3's array holds at the end: the running value after the last point. -/
abbrev result3 (c : Dev nD) : Buf (Elt F) ((c : Thread nD τ).loc main_v0_1) := (chain m c 63 (by rw [show cfg0.N = 64 from N_0]; decide)).2.1

/-- The one write-back, at the last point, writes it: the block is the whole one-entry array. -/
theorem flushed_eq3 (c : Dev nD) (t : Fin cfg0.N) (hf : (cfg0.win 3).flush t = true) :
    (dats m 0 c).flushed 3 t = ((cfg0.win 3).blk t).view.read (Elt F) (result3 m c) := by
  have hN : cfg0.N = 64 := N_0
  have h3 : t.val = 63 := by have := (flush0_3 t).mp hf; have := t.isLt; omega
  obtain rfl : t = last := Fin.ext h3
  show (cfg0.win 3).cut (grid0.coords last) ((dats m 0 c).after 3 last) = _
  rw [after0_3, outsAt_eq]
  have hz' : (fun a => win0_3.index last a * main_v0_1.ty.shape.size a) = fun _ => 0 := funext fun a => by fin_cases a <;> decide
  exact (Memref.read_access_unit_zero (Elt F) main_v0_1 hz' (fun a => by rw [congrFun hz' a]; simp) (result3 m c)).symm

/-- So the array ends holding the running value after the last point: that point's block covers it. -/
theorem final3 (c : Dev nD) : (dats m 0 c).arrAt 3 cfg0.N = result3 m c :=
  (dats m 0 c).arrAt_eq_of_cover 3 (result3 m c) (flushed_eq3 m c) fun i =>
    ⟨last, (flush0_3 last).mpr rfl, by
      show i ∈ ((View.whole main_v0_1).slice (win0_3.rect last)).set
      rw [View.set_slice_whole, Rect.mem_set_unit]
      intro a
      have h0 : (i 0 : Nat) < 1 := (i 0).isLt
      have h1 : (i 1 : Nat) < 1 := (i 1).isLt
      match a with
      | ⟨0, _⟩ => show win0_3.index last 0 * win0_3.size 0 ≤ (i 0 : Nat) ∧ (i 0 : Nat) < win0_3.index last 0 * win0_3.size 0 + win0_3.xsize (grid0.coords last) 0
                  rw [show win0_3.index last 0 * win0_3.size 0 = 0 from by decide +kernel, show win0_3.xsize (grid0.coords last) 0 = 1 from by decide +kernel]; omega
      | ⟨1, _⟩ => show win0_3.index last 1 * win0_3.size 1 ≤ (i 1 : Nat) ∧ (i 1 : Nat) < win0_3.index last 1 * win0_3.size 1 + win0_3.xsize (grid0.coords last) 1
                  rw [show win0_3.index last 1 * win0_3.size 1 = 0 from by decide +kernel, show win0_3.xsize (grid0.coords last) 1 = 1 from by decide +kernel]; omega⟩

/-- What output 4's array holds at the end: the running value after the last point. -/
abbrev result4 (c : Dev nD) : Buf (Elt F) ((c : Thread nD τ).loc main_v0_2) := (chain m c 63 (by rw [show cfg0.N = 64 from N_0]; decide)).2.2

/-- The one write-back, at the last point, writes it: the block is the whole one-entry array. -/
theorem flushed_eq4 (c : Dev nD) (t : Fin cfg0.N) (hf : (cfg0.win 4).flush t = true) :
    (dats m 0 c).flushed 4 t = ((cfg0.win 4).blk t).view.read (Elt F) (result4 m c) := by
  have hN : cfg0.N = 64 := N_0
  have h3 : t.val = 63 := by have := (flush0_4 t).mp hf; have := t.isLt; omega
  obtain rfl : t = last := Fin.ext h3
  show (cfg0.win 4).cut (grid0.coords last) ((dats m 0 c).after 4 last) = _
  rw [after0_4, outsAt_eq]
  have hz' : (fun a => win0_4.index last a * main_v0_2.ty.shape.size a) = fun _ => 0 := funext fun a => by fin_cases a <;> decide
  exact (Memref.read_access_unit_zero (Elt F) main_v0_2 hz' (fun a => by rw [congrFun hz' a]; simp) (result4 m c)).symm

/-- So the array ends holding the running value after the last point: that point's block covers it. -/
theorem final4 (c : Dev nD) : (dats m 0 c).arrAt 4 cfg0.N = result4 m c :=
  (dats m 0 c).arrAt_eq_of_cover 4 (result4 m c) (flushed_eq4 m c) fun i =>
    ⟨last, (flush0_4 last).mpr rfl, by
      show i ∈ ((View.whole main_v0_2).slice (win0_4.rect last)).set
      rw [View.set_slice_whole, Rect.mem_set_unit]
      intro a
      have h0 : (i 0 : Nat) < 1 := (i 0).isLt
      have h1 : (i 1 : Nat) < 1 := (i 1).isLt
      match a with
      | ⟨0, _⟩ => show win0_4.index last 0 * win0_4.size 0 ≤ (i 0 : Nat) ∧ (i 0 : Nat) < win0_4.index last 0 * win0_4.size 0 + win0_4.xsize (grid0.coords last) 0
                  rw [show win0_4.index last 0 * win0_4.size 0 = 0 from by decide +kernel, show win0_4.xsize (grid0.coords last) 0 = 1 from by decide +kernel]; omega
      | ⟨1, _⟩ => show win0_4.index last 1 * win0_4.size 1 ≤ (i 1 : Nat) ∧ (i 1 : Nat) < win0_4.index last 1 * win0_4.size 1 + win0_4.xsize (grid0.coords last) 1
                  rw [show win0_4.index last 1 * win0_4.size 1 = 0 from by decide +kernel, show win0_4.xsize (grid0.coords last) 1 = 1 from by decide +kernel]; omega⟩

end Cert.KernelIdeal.Acc

end
-- ==== Proof.KernelRun.lean ====
/-
  The tiled program's run, read: after the grid the three one-entry arrays hold the accumulators' final values, and
  the host lines after the grid turn them into the four results — the first divided by ten, the other two as they
  are, and the sum of the three — for any reading of the floats.
-/
import proofs.«103145_j64630667870263_1_alg».proof.Proof.KernelValue
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Acc

open Cert.KernelIdeal Cert.KernelIdeal.Gen Cert.KernelIdeal.Pieces

variable {F : FTy → Type} [FloatOps F]
variable (m : (ℓ : Loc nD τ sig) → Buf (Elt F) ℓ) (ρ : Dev nD → PrngReg)

/-- The three accumulators' final values as scalars. -/
abbrev s2 (c : Dev nD) : FVec F S_ .f32 := shapeCast S_ (result2 m c) shapeCasts_S1x1_S_
abbrev s3 (c : Dev nD) : FVec F S_ .f32 := shapeCast S_ (result3 m c) shapeCasts_S1x1_S_
abbrev s4 (c : Dev nD) : FVec F S_ .f32 := shapeCast S_ (result4 m c) shapeCasts_S1x1_S_
/-- The first result: the visibility accumulator over ten. -/
abbrev r0 (c : Dev nD) : FVec F S_ .f32 := Host.divf (s2 m c) (constant S_ .f32 0x41200000#32)

/-- After the grid each accumulator's array, as the host lines find it, holds its final value. -/
theorem arr2 (c : Dev nD) : Pipeline.withArrays (cfgs 0).spec c (V0 m c) (fun w => (dats m 0 c).arrAt w (cfgs 0).N)
    (Proc.tc.devRef main_v0_0) = result2 m c :=
  (Pipeline.withArrays_arr spec0 launch0.win.arr_inj c _ _ 2).trans (final2 m c)
theorem arr3 (c : Dev nD) : Pipeline.withArrays (cfgs 0).spec c (V0 m c) (fun w => (dats m 0 c).arrAt w (cfgs 0).N)
    (Proc.tc.devRef main_v0_1) = result3 m c :=
  (Pipeline.withArrays_arr spec0 launch0.win.arr_inj c _ _ 3).trans (final3 m c)
theorem arr4 (c : Dev nD) : Pipeline.withArrays (cfgs 0).spec c (V0 m c) (fun w => (dats m 0 c).arrAt w (cfgs 0).N)
    (Proc.tc.devRef main_v0_2) = result4 m c :=
  (Pipeline.withArrays_arr spec0 launch0.win.arr_inj c _ _ 4).trans (final4 m c)

theorem tail_v4 (c : Dev nD) : Pipeline.afterTail₀ cfgs (dats m) 0 (V0 m) [hostOps1] c main_v4 = r0 m c := by
  unfold Pipeline.afterTail₀
  show StableHlo.after hostOps1 _ (Proc.devRef .tc main_v4) = _
  after_results
  rw [arr2]
  rfl
theorem tail_v2 (c : Dev nD) : Pipeline.afterTail₀ cfgs (dats m) 0 (V0 m) [hostOps1] c main_v2 = s3 m c := by
  unfold Pipeline.afterTail₀
  show StableHlo.after hostOps1 _ (Proc.devRef .tc main_v2) = _
  after_results
  rw [arr3]
  rfl
theorem tail_v3 (c : Dev nD) : Pipeline.afterTail₀ cfgs (dats m) 0 (V0 m) [hostOps1] c main_v3 = s4 m c := by
  unfold Pipeline.afterTail₀
  show StableHlo.after hostOps1 _ (Proc.devRef .tc main_v3) = _
  after_results
  rw [arr4]
  rfl
theorem tail_v6 (c : Dev nD) : Pipeline.afterTail₀ cfgs (dats m) 0 (V0 m) [hostOps1] c main_v6
    = addf (addf (r0 m c) (s3 m c)) (s4 m c) := by
  unfold Pipeline.afterTail₀
  show StableHlo.after hostOps1 _ (Proc.devRef .tc main_v6) = _
  after_results
  rw [arr2, arr3, arr4]
  rfl

/-- The run: every weakly fair execution terminates with the four results at these values and the six arguments
    unchanged. -/
theorem run : θ_run defs (onTc (τ := τ) (main (F := F))) ⟨m, fun _ => 0, ρ⟩ fun r => ∀ c : Dev nD,
      r.2.mem ((c.tc : Thread nD τ).loc main_v6) = addf (addf (r0 m c) (s3 m c)) (s4 m c)
      ∧ r.2.mem ((c.tc : Thread nD τ).loc main_v4) = r0 m c
      ∧ r.2.mem ((c.tc : Thread nD τ).loc main_v2) = s3 m c
      ∧ r.2.mem ((c.tc : Thread nD τ).loc main_v3) = s4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v6 (Pipeline.mem_restRefs_of main_v6 (by decide) (by decide))).trans (tail_v6 m c),
      ((h c).2 main_v4 (Pipeline.mem_restRefs_of main_v4 (by decide) (by decide))).trans (tail_v4 m c),
      ((h c).2 main_v2 (Pipeline.mem_restRefs_of main_v2 (by decide) (by decide))).trans (tail_v2 m c),
      ((h c).2 main_v3 (Pipeline.mem_restRefs_of main_v3 (by decide) (by decide))).trans (tail_v3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Acc

end
-- ==== Proof.Spec.lean ====
/-
  The quantities the two programs compute, written once as functions of the two lane arrays.

  A lane array holds, for each of N samples and 26 anchors, 93 = 3 × 31 numbers: for each of the three lane types
  t, twenty offsets (entries 0..19), ten visibilities (entries 20..29) and one class probability (entry 30); entry o
  of type t sits at position 31 t + o.  With p the prediction and g the ground truth, ε the shared small shift:

    vis  = g_v · log (p_v + ε) + (1 − g_v + ε) · log (1 − p_v + ε)      per visibility entry,
    cls  = g_c · log (p_c + ε) + (1 − g_c) · log (1 − p_c + ε)          per class entry,
    l1   = | g_c · g_v · (p_o − g_o) |                                   per offset entry, g_v the visibility
                                                                          with the same index modulo ten.

  One program sums each of these over every entry at once and negates the first two totals; the other walks the
  samples in 64 tiles of 128, and inside a tile subtracts (adds, for l1) the three lane types' sums one after the
  other from zero, then adds the tile's value to a running total.  Both divide the first result by ten and add the
  three up.  The definitions below spell both forms; that they agree on real inputs is proved elsewhere.
-/
import Idealize.ShloMosaic.PureOps.Ideal
import Idealize.ShloMosaic.PureOps.Ideal.Laws
import Idealize.ShloMosaic.Lib.ValueIdx

noncomputable section

namespace Cert.Lane

open Idealize.ShloMosaic Idealize.ShloMosaic.ValueIdx

/-- The shift ε (the binary value of the single-precision word nearest 1e-9), the same word in both programs. -/
abbrev eps : EReal := Ideal.ofBits .f32 0x3089705F#32
/-- The word of 1. -/
abbrev one : EReal := Ideal.ofBits .f32 0x3F800000#32
/-- The word of 10. -/
abbrev ten : EReal := Ideal.ofBits .f32 0x41200000#32

/-- A lane array of N samples. -/
abbrev Lanes (N : ℕ) := (⟨3, ![N, 26, 93]⟩ : Shape).Idx → EReal

/-- Entry `o` of lane type `t` sits at position 31 t + o. -/
def pos (t : Fin 3) (o : ℕ) (ho : o < 31) : Fin 93 := ⟨31 * t.val + o, by have := t.isLt; omega⟩

/-- The visibility cross-entropy term of one entry. -/
def vis (pv gv : EReal) : EReal := gv * Ideal.log (pv + eps) + (one - gv + eps) * Ideal.log (one - pv + eps)
/-- The class cross-entropy term of one entry. -/
def cls (pc gc : EReal) : EReal := gc * Ideal.log (pc + eps) + (one - gc) * Ideal.log (one - pc + eps)
/-- The masked absolute offset error of one entry. -/
def l1 (gc gv d : EReal) : EReal := max (gc * gv * d) (-(gc * gv * d))

variable {N : ℕ}

/-- The visibility term at sample n, anchor a, type t, visibility slot k. -/
def visAt (P Q : Lanes N) (n : Fin N) (a : Fin 26) (t : Fin 3) (k : Fin 10) : EReal :=
  vis (P (ix3 n a (pos t (20 + k.val) (by have := k.isLt; omega)))) (Q (ix3 n a (pos t (20 + k.val) (by have := k.isLt; omega))))

/-- The class term at sample n, anchor a, type t. -/
def clsAt (P Q : Lanes N) (n : Fin N) (a : Fin 26) (t : Fin 3) : EReal :=
  cls (P (ix3 n a (pos t 30 (by omega)))) (Q (ix3 n a (pos t 30 (by omega))))

/-- The offset term at sample n, anchor a, type t, offset slot j, masked by the visibility of slot k. -/
def l1At (P Q : Lanes N) (n : Fin N) (a : Fin 26) (t : Fin 3) (k : Fin 10) (j : Fin 20) : EReal :=
  l1 (Q (ix3 n a (pos t 30 (by omega)))) (Q (ix3 n a (pos t (20 + k.val) (by have := k.isLt; omega))))
    (P (ix3 n a (pos t j.val (by have := j.isLt; omega))) - Q (ix3 n a (pos t j.val (by have := j.isLt; omega))))

/-- The first half of the offsets: slot k itself. -/
def lo (k : Fin 10) : Fin 20 := ⟨k.val, by have := k.isLt; omega⟩
/-- The second half of the offsets: slot 10 + k. -/
def hi (k : Fin 10) : Fin 20 := ⟨10 + k.val, by have := k.isLt; omega⟩
/-- The visibility slot that masks offset slot j: j modulo ten. -/
def slot (j : Fin 20) : Fin 10 := ⟨j.val % 10, Nat.mod_lt _ (by omega)⟩

/-! ## One tile of 128 samples, as the tiled program accumulates it -/

/-- A tile's visibility value: the three types' sums subtracted from zero, one after the other. -/
def tileVis (X Y : Lanes 128) : EReal :=
  ((0 - ∑ r : Fin 128, ∑ a : Fin 26, ∑ k : Fin 10, visAt X Y r a 0 k)
      - ∑ r : Fin 128, ∑ a : Fin 26, ∑ k : Fin 10, visAt X Y r a 1 k)
    - ∑ r : Fin 128, ∑ a : Fin 26, ∑ k : Fin 10, visAt X Y r a 2 k

/-- A tile's class value. -/
def tileCls (X Y : Lanes 128) : EReal :=
  ((0 - ∑ r : Fin 128, ∑ a : Fin 26, clsAt X Y r a 0)
      - ∑ r : Fin 128, ∑ a : Fin 26, clsAt X Y r a 1)
    - ∑ r : Fin 128, ∑ a : Fin 26, clsAt X Y r a 2

/-- A tile's offset value: the two halves of the offsets are added entry by entry before summing. -/
def tileL1 (X Y : Lanes 128) : EReal :=
  ((0 + ∑ r : Fin 128, ∑ a : Fin 26, ∑ k : Fin 10, (l1At X Y r a 0 k (lo k) + l1At X Y r a 0 k (hi k)))
      + ∑ r : Fin 128, ∑ a : Fin 26, ∑ k : Fin 10, (l1At X Y r a 1 k (lo k) + l1At X Y r a 1 k (hi k)))
    + ∑ r : Fin 128, ∑ a : Fin 26, ∑ k : Fin 10, (l1At X Y r a 2 k (lo k) + l1At X Y r a 2 k (hi k))

/-- Tile b of a whole array: samples 128 b .. 128 b + 127. -/
def blk (P : Lanes 8192) (b : Fin 64) : Lanes 128 := fun i =>
  P (ix3 (⟨128 * b.val + (i 0).val, by have h : (i 0).val < 128 := (i 0).isLt; have := b.isLt; omega⟩ : Fin 8192) (i 1) (i 2))

/-! ## The results, in the tiled form -/

def tLoss0 (P Q : Lanes 8192) : EReal := Ideal.div (∑ b : Fin 64, tileVis (blk P b) (blk Q b)) ten
def tLoss1 (P Q : Lanes 8192) : EReal := ∑ b : Fin 64, tileCls (blk P b) (blk Q b)
def tLoss2 (P Q : Lanes 8192) : EReal := ∑ b : Fin 64, tileL1 (blk P b) (blk Q b)

/-! ## The results, in the all-at-once form -/

def wLoss0 (P Q : Lanes 8192) : EReal :=
  Ideal.div (-(0 + ∑ n : Fin 8192, ∑ a : Fin 26, ∑ t : Fin 3, ∑ k : Fin 10, visAt P Q n a t k)) ten
def wLoss1 (P Q : Lanes 8192) : EReal := -(0 + ∑ n : Fin 8192, ∑ a : Fin 26, ∑ t : Fin 3, clsAt P Q n a t)
def wLoss2 (P Q : Lanes 8192) : EReal :=
  0 + ∑ n : Fin 8192, ∑ a : Fin 26, ∑ t : Fin 3, ∑ j : Fin 20, l1At P Q n a t (slot j) j

end Cert.Lane

end
-- ==== Proof.LibRowBlocks.lean ====
/- General lemmas about a reduction carried block by block.

   A kernel that reduces a long axis in tiles keeps a running value: the first tile combines its own reduction with the
   neutral start, every later tile combines its reduction with what the tile before left. The lemmas below say that the value
   after the last tile is the reduction of all the tiles' reductions, for a sum in any commutative additive monoid (the extended
   reals at the ideal reading of floats) and for a maximum in any join-semilattice, and that a sum over positions
   `a · B + b` of a long axis is the sum over tiles `a` of the sums over positions `b` inside the tile. Nothing here mentions a
   program. -/
import Mathlib.Algebra.BigOperators.Fin
import Mathlib.Data.Finset.Range
import Mathlib.Algebra.BigOperators.Group.Finset.Basic
import Mathlib.Order.Lattice
import Mathlib.Data.Finset.Lattice.Fold
import Mathlib.Logic.Equiv.Fin.Basic

namespace RowBlocks

open Finset

/-- A running sum: `S 0 = z + s 0` and `S (t + 1) = S t + s (t + 1)` up to tile `n` give `S n = z + ∑ t ≤ n, s t`. -/
theorem running_sum {α : Type*} [AddCommMonoid α] (s S : ℕ → α) (z : α) (n : ℕ) (h0 : S 0 = z + s 0)
    (hs : ∀ t, t < n → S (t + 1) = S t + s (t + 1)) : S n = z + ∑ t ∈ range (n + 1), s t := by
  induction n with
  | zero => simpa using h0
  | succ k ih =>
    rw [hs k (Nat.lt_succ_self k), ih fun t ht => hs t (Nat.lt_succ_of_lt ht), sum_range_succ (fun t => s t) (k + 1), add_assoc]

/-- A running maximum: `M 0 = z ⊔ m 0` and `M (t + 1) = M t ⊔ m (t + 1)` up to tile `n` give `M n = z ⊔ sup_{t ≤ n} m t`. -/
theorem running_sup {β : Type*} [SemilatticeSup β] (m M : ℕ → β) (z : β) (n : ℕ) (h0 : M 0 = z ⊔ m 0)
    (hs : ∀ t, t < n → M (t + 1) = M t ⊔ m (t + 1)) : M n = z ⊔ (range (n + 1)).sup' nonempty_range_add_one m := by
  induction n with
  | zero => simpa using h0
  | succ k ih =>
    rw [hs k (Nat.lt_succ_self k), ih fun t ht => hs t (Nat.lt_succ_of_lt ht), sup_assoc]
    congr 1
    apply le_antisymm
    · refine sup_le (sup'_le _ _ fun t ht => le_sup' m (mem_range.mpr (Nat.lt_succ_of_lt (mem_range.mp ht)))) (le_sup' m (mem_range.mpr (Nat.lt_succ_self _)))
    · refine sup'_le _ _ fun t ht => ?_
      rcases Nat.lt_succ_iff_lt_or_eq.mp (mem_range.mp ht) with h | h
      · exact le_sup_of_le_left (le_sup' m (mem_range.mpr h))
      · subst h; exact le_sup_right

/-- A sum over the positions of a long axis of extent `A · B`, position `a · B + b` being position `b` of tile `a`, is the sum
    over the tiles of the sums inside each tile. -/
theorem sum_tiles {α : Type*} [AddCommMonoid α] (A B : ℕ) (f : Fin (A * B) → α) :
    ∑ k : Fin (A * B), f k = ∑ a : Fin A, ∑ b : Fin B, f (finProdFinEquiv (a, b)) := by
  rw [← Fintype.sum_prod_type' (fun a b => f (finProdFinEquiv (a, b)))]
  exact (Equiv.sum_comp finProdFinEquiv f).symm

end RowBlocks
-- ==== Proof.KernelSum.lean ====
/-
  The tiled program's results at the exact reading of the floats.

  A step of an accumulator adds the tile's value to the old contents; starting from zero and stepping through the 64
  tiles in order, the accumulator ends at the sum of the 64 tile values (a running sum in a commutative monoid: no
  finiteness is needed for this).  With the tile at point t being samples 128 t .. 128 t + 127 of the whole array,
  the four results are the tiled forms of the specification.
-/
import proofs.«103145_j64630667870263_1_alg».proof.Proof.KernelRun
import proofs.«103145_j64630667870263_1_alg».proof.Proof.Spec
import proofs.«103145_j64630667870263_1_alg».proof.Proof.LibRowBlocks
import Idealize.ShloMosaic.PureOps.Ideal.Laws
import Idealize.ShloMosaic.Lib.ValueIdx

noncomputable section

open Idealize.ShloMosaic Idealize.ShloMosaic.TcCoe Idealize.SL.Sem Idealize.ShloMosaic.ValueIdx

namespace Cert.KernelIdeal.AccIdeal

open Cert.KernelIdeal Cert.KernelIdeal.Gen Cert.KernelIdeal.Pieces Cert.KernelIdeal.Acc Cert.Lane

variable (m : (ℓ : Loc nD τ sig) → Buf (Elt Ideal) ℓ)

theorem hN : cfg0.N = 64 := N_0

/-- Tile b as a grid point. -/
abbrev pt (b : Fin 64) : Fin cfg0.N := b.cast hN.symm

section One

variable (step : Vec Ideal S128x26x93 .f32 → Vec Ideal S128x26x93 .f32 → Vec Ideal S1x1 .f32 → Vec Ideal S1x1 .f32)
  (tile : Vec Ideal S128x26x93 .f32 → Vec Ideal S128x26x93 .f32 → EReal)

/-- One accumulator's running value after point n. -/
def run1 (c : Dev nD) : (n : ℕ) → n < cfg0.N → Vec Ideal S1x1 .f32
  | 0, h => step (tile0 m c ⟨0, h⟩) (tile1 m c ⟨0, h⟩) zero
  | n + 1, h => step (tile0 m c ⟨n + 1, h⟩) (tile1 m c ⟨n + 1, h⟩) (run1 c n (Nat.lt_of_succ_lt h))

/-- If a step adds the tile's value to the old contents, the value after the last point is the sum of the 64 tile
    values. -/
theorem run1_sum (hstep : ∀ x0 x1 xo j, step x0 x1 xo j = xo j + tile x0 x1) (c : Dev nD) (h63 : 63 < cfg0.N)
    (j : S1x1.Idx) :
    run1 m step c 63 h63 j = ∑ b : Fin 64, tile (tile0 m c (pt b)) (tile1 m c (pt b)) := by
  let S : ℕ → EReal := fun n => if h : n < cfg0.N then run1 m step c n h j else 0
  let s : ℕ → EReal := fun t => if h : t < cfg0.N then tile (tile0 m c ⟨t, h⟩) (tile1 m c ⟨t, h⟩) else 0
  have h0 : S 0 = 0 + s 0 := by
    have h : 0 < cfg0.N := by rw [hN]; omega
    show (if h : 0 < cfg0.N then run1 m step c 0 h j else 0) = 0 + (if h : 0 < cfg0.N then _ else 0)
    rw [dif_pos h, dif_pos h]
    show step _ _ zero j = _
    rw [hstep]
    show Ideal.ofBits .f32 0x00000000#32 + _ = _
    rw [Ideal.ofBits_zero_f32]
  have hs : ∀ t, t < 63 → S (t + 1) = S t + s (t + 1) := fun t ht => by
    have h1 : t + 1 < cfg0.N := by rw [hN]; omega
    have h2 : t < cfg0.N := by rw [hN]; omega
    show (if h : t + 1 < cfg0.N then run1 m step c (t + 1) h j else 0)
      = (if h : t < cfg0.N then run1 m step c t h j else 0) + (if h : t + 1 < cfg0.N then _ else 0)
    rw [dif_pos h1, dif_pos h2, dif_pos h1]
    show step _ _ (run1 m step c t _) j = _
    rw [hstep]
  have key := RowBlocks.running_sum s S 0 63 h0 hs
  have e : S 63 = run1 m step c 63 h63 j := dif_pos h63
  rw [← e, key, zero_add, Finset.sum_range]
  refine Finset.sum_congr rfl fun b _ => ?_
  have hb : b.val < cfg0.N := by rw [hN]; exact b.isLt
  show (if h : b.val < cfg0.N then tile (tile0 m c ⟨b.val, h⟩) (tile1 m c ⟨b.val, h⟩) else 0) = _
  rw [dif_pos hb]
  rfl

end One

/-- The running triple's components are the three single accumulators. -/
theorem chain_eq (c : Dev nD) : ∀ (n : ℕ) (h : n < cfg0.N),
    chain m c n h = (run1 m step2 c n h, run1 m step3 c n h, run1 m step4 c n h)
  | 0, h => rfl
  | n + 1, h => by
    show (step2 _ _ (chain m c n _).1, step3 _ _ (chain m c n _).2.1, step4 _ _ (chain m c n _).2.2) = _
    rw [chain_eq c n]
    rfl

end Cert.KernelIdeal.AccIdeal

end
-- ==== Proof.TileIdx.lean ====
/-
  The two input tiles of the tiled program, as slices of the whole arrays.

  The tiled program walks a grid of 64 points.  At point t each of its two inputs is a window of shape
  [128, 26, 93] onto the whole [8192, 26, 93] array; the window's position is given by a block index per axis, and
  entry (r, a, d) of the window is the array's entry whose coordinate on each axis is

      block index × block size + the coordinate inside the block.

  For both inputs the block index at point t is (t, 0, 0), and the block sizes are 128, 26, 93.  So entry (r, a, d)
  of the window is entry (128 t + r, a, d) of the array: the window is tile t in the sense of the shared vocabulary,
  samples 128 t .. 128 t + 127.
-/
import proofs.«103145_j64630667870263_1_alg».proof.Proof.Gen.KernelIdeal.Frame
import proofs.«103145_j64630667870263_1_alg».proof.Proof.Spec
import Idealize.ShloMosaic.Lib.Pipeline.Value
import Idealize.ShloMosaic.Lib.ValueIdx

noncomputable section

namespace Cert.KernelIdeal.TileIdx

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The first input's block index at grid point t is (t, 0, 0): a finite check over the 64 points. -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The second input's block index at grid point t is (t, 0, 0) as well. -/
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The first input's window at grid point t is tile t of the first array. -/
theorem iblk0_eq (c : Dev nD) (t : Fin cfg0.N) :
    (iblk m c 0 t : Vec Ideal S128x26x93 .f32) = Cert.Lane.blk (m ((c : Thread nD τ).loc main_arg0)) (t.cast (show cfg0.N = 64 from N_0)) := by
  have hi := idx0 t
  funext j
  unfold iblk Cert.Lane.blk
  rw [View.read_apply]
  show V m c main_arg0 _ = m (c.tc.loc main_arg0) _
  unfold V
  -- both sides read the same array; compare the two indices axis by axis
  congr 1
  funext a
  apply Fin.ext
  match a with
  | ⟨0, _⟩ => show win0_0.index t 0 * 128 + 1 * (j 0).val = 128 * t.val + (j 0).val; rw [hi.1]; omega
  | ⟨1, _⟩ => show win0_0.index t 1 * 26 + 1 * (j 1).val = (j 1).val; rw [hi.2.1]; omega
  | ⟨2, _⟩ => show win0_0.index t 2 * 93 + 1 * (j 2).val = (j 2).val; rw [hi.2.2]; omega

/-- The second input's window at grid point t is tile t of the second array. -/
theorem iblk1_eq (c : Dev nD) (t : Fin cfg0.N) :
    (iblk m c 1 t : Vec Ideal S128x26x93 .f32) = Cert.Lane.blk (m ((c : Thread nD τ).loc main_arg1)) (t.cast (show cfg0.N = 64 from N_0)) := by
  have hi := idx1 t
  funext j
  unfold iblk Cert.Lane.blk
  rw [View.read_apply]
  show V m c main_arg1 _ = m (c.tc.loc main_arg1) _
  unfold V
  congr 1
  funext a
  apply Fin.ext
  match a with
  | ⟨0, _⟩ => show win0_1.index t 0 * 128 + 1 * (j 0).val = 128 * t.val + (j 0).val; rw [hi.1]; omega
  | ⟨1, _⟩ => show win0_1.index t 1 * 26 + 1 * (j 1).val = (j 1).val; rw [hi.2.1]; omega
  | ⟨2, _⟩ => show win0_1.index t 2 * 93 + 1 * (j 2).val = (j 2).val; rw [hi.2.2]; omega

end Cert.KernelIdeal.TileIdx

end
-- ==== Proof.KernelResults.lean ====
/-
  The tiled program's four results at the exact reading of the floats are the tiled forms of the specification:
  the three accumulators end at the sums over the 64 tiles of the tiles' values, the tile at point t is samples
  128 t .. 128 t + 127 of the argument arrays, and the host lines divide the first by ten and add the three.
-/
import proofs.«103145_j64630667870263_1_alg».proof.Proof.KernelSum
import proofs.«103145_j64630667870263_1_alg».proof.Proof.TileIdx

noncomputable section

open Idealize.ShloMosaic Idealize.ShloMosaic.TcCoe Idealize.SL.Sem Idealize.ShloMosaic.ValueIdx

namespace Cert.KernelIdeal.Results

open Cert.KernelIdeal Cert.KernelIdeal.Gen Cert.KernelIdeal.Pieces Cert.KernelIdeal.Acc Cert.KernelIdeal.AccIdeal Cert.Lane

variable (m : (ℓ : Loc nD τ sig) → Buf (Elt Ideal) ℓ)

/-- The two lane arrays the program is given. -/
abbrev P (c : Dev nD) : Lanes 8192 := m ((c : Thread nD τ).loc main_arg0)
abbrev Q (c : Dev nD) : Lanes 8192 := m ((c : Thread nD τ).loc main_arg1)

theorem tile0_pt (c : Dev nD) (b : Fin 64) : tile0 m c (pt b) = blk (P m c) b :=
  (TileIdx.iblk0_eq m c (pt b)).trans rfl
theorem tile1_pt (c : Dev nD) (b : Fin 64) : tile1 m c (pt b) = blk (Q m c) b :=
  (TileIdx.iblk1_eq m c (pt b)).trans rfl

section
variable (h2 : ∀ (x0 x1 : Vec Ideal S128x26x93 .f32) (xo : Vec Ideal S1x1 .f32) (j : S1x1.Idx), step2 (F := Ideal) x0 x1 xo j = xo j + tileVis x0 x1)
  (h3 : ∀ (x0 x1 : Vec Ideal S128x26x93 .f32) (xo : Vec Ideal S1x1 .f32) (j : S1x1.Idx), step3 (F := Ideal) x0 x1 xo j = xo j + tileCls x0 x1)
  (h4 : ∀ (x0 x1 : Vec Ideal S128x26x93 .f32) (xo : Vec Ideal S1x1 .f32) (j : S1x1.Idx), step4 (F := Ideal) x0 x1 xo j = xo j + tileL1 x0 x1)
include h2 h3 h4

theorem acc2 (c : Dev nD) (j : S1x1.Idx) : result2 m c j = ∑ b : Fin 64, tileVis (blk (P m c) b) (blk (Q m c) b) := by
  show (chain m c 63 _).1 j = _
  rw [chain_eq]
  show run1 m step2 c 63 _ j = _
  rw [run1_sum m step2 tileVis h2]
  exact Finset.sum_congr rfl fun b _ => by rw [tile0_pt, tile1_pt]

theorem acc3 (c : Dev nD) (j : S1x1.Idx) : result3 m c j = ∑ b : Fin 64, tileCls (blk (P m c) b) (blk (Q m c) b) := by
  show (chain m c 63 _).2.1 j = _
  rw [chain_eq]
  show run1 m step3 c 63 _ j = _
  rw [run1_sum m step3 tileCls h3]
  exact Finset.sum_congr rfl fun b _ => by rw [tile0_pt, tile1_pt]

theorem acc4 (c : Dev nD) (j : S1x1.Idx) : result4 m c j = ∑ b : Fin 64, tileL1 (blk (P m c) b) (blk (Q m c) b) := by
  show (chain m c 63 _).2.2 j = _
  rw [chain_eq]
  show run1 m step4 c 63 _ j = _
  rw [run1_sum m step4 tileL1 h4]
  exact Finset.sum_congr rfl fun b _ => by rw [tile0_pt, tile1_pt]

/-- The first result: the visibility total over ten. -/
theorem loss0 (c : Dev nD) : r0 m c ix0 = tLoss0 (P m c) (Q m c) := by
  show Ideal.div (result2 m c _) (Ideal.ofBits .f32 0x41200000#32) = _
  rw [acc2 m h2 h3 h4]
  rfl
/-- The second result: the class total. -/
theorem loss1 (c : Dev nD) : s3 m c ix0 = tLoss1 (P m c) (Q m c) := by
  show result3 m c _ = _
  rw [acc3 m h2 h3 h4]
  rfl
/-- The third result: the offset total. -/
theorem loss2 (c : Dev nD) : s4 m c ix0 = tLoss2 (P m c) (Q m c) := by
  show result4 m c _ = _
  rw [acc4 m h2 h3 h4]
  rfl
/-- The fourth: their sum. -/
theorem total (c : Dev nD) : addf (addf (r0 m c) (s3 m c)) (s4 m c) ix0
    = (tLoss0 (P m c) (Q m c) + tLoss1 (P m c) (Q m c)) + tLoss2 (P m c) (Q m c) := by
  show (r0 m c ix0 + s3 m c ix0) + s4 m c ix0 = _
  rw [loss0 m h2 h3 h4, loss1 m h2 h3 h4, loss2 m h2 h3 h4]

end

end Cert.KernelIdeal.Results

end
-- ==== Proof.LibKeepdims3.lean ====
/-
  Keep-dimensions layout operations on the LAST axis of a rank-3 array, read at an index, and the normalisation of each
  row (last axis) to unit Euclidean length — at the ideal values.

  * an array [a, b] cast to [a, b, 1] reads, at (i, j, ·), the array at (i, j);
  * an array [a, b, 1] broadcast to [a, b, c] reads, at (i, j, k), the array at (i, j, 0);
  * a sum along the last axis of [a, b, c], at (i, j), is the sum over k of the entry (i, j, k);
  * dividing every entry by the larger of its row's Euclidean norm and a constant ε — as a kernel spells it: square,
    sum, recast, square root, maximum with the constant column, broadcast, divide — reads at (i, j, k) as
    x / max(√(Σ_q x_q²), ε) of the row x = (entry (i, j, q))_q alone.
  With rows indexed (head, position) this is the per-head normalisation of queries and keys in head-major layout.
  Any sizes; nothing is asked of the entries or of ε.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.Keepdims3

open Idealize.ShloMosaic Idealize.ShloMosaic.ValueIdx

variable {α : Type} {a b c : ℕ}

/-- An array [a, b] cast to [a, b, 1] reads, at (i, j, u), the array at (i, j). -/
theorem shapeCast_ab_ab1_apply (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An array [a, b, 1] broadcast to [a, b, c] reads, at (i, j, k), the array at (i, j, 0). -/
theorem broadcastTo_ab1_abc_apply (v : (⟨3, ![a, b, 1]⟩ : Shape).Idx → α) (h : (⟨3, ![a, b, 1]⟩ : Shape).Broadcasts ⟨3, ![a, b, c]⟩)
    (i : Fin a) (j : Fin b) (k : Fin c) : broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The sum along the last axis: at (i, j), the sum over k of the entry (i, j, k). -/
theorem add_axis2_apply {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => ?_
  exact congrArg src (funext fun d => Fin.ext (by match d with | ⟨0, _⟩ => rfl | ⟨1, _⟩ => rfl | ⟨2, _⟩ => rfl))

/-- A row divided by the larger of its Euclidean norm and ε. -/
def unitRow (x : Fin c → EReal) (eps : EReal) (k : Fin c) : EReal :=
  Ideal.div (x k) (max (Ideal.sqrt (∑ q, x q * x q)) eps)

/-- THE NORMALISED ARRAY read at (i, j, k): the row's entry over the larger of the row's norm and ε. -/
theorem unitRows_apply (x : FVec Ideal ⟨3, ![a, b, c]⟩ .f32)
    (hred : (⟨3, ![a, b, c]⟩ : Shape).Reduces [2] ⟨2, ![a, b]⟩) (hφ : FKind.Formats FTy.f32)
    (hacc : (0x00000000#32 : BitVec FTy.f32.bits) = FKind.add.neutral .f32 hφ)
    (hcast : (⟨2, ![a, b]⟩ : Shape).ShapeCasts ⟨3, ![a, b, 1]⟩)
    (hb : (⟨3, ![a, b, 1]⟩ : Shape).Broadcasts ⟨3, ![a, b, c]⟩) (eps : EReal)
    (i : Fin a) (j : Fin b) (k : Fin c) :
    divf x (broadcastTo ⟨3, ![a, b, c]⟩
        (maximumf (sqrt (shapeCast ⟨3, ![a, b, 1]⟩ (multiReduction .add [2] ⟨2, ![a, b]⟩ (mulf x x) 0x00000000#32 hred hφ hacc) hcast))
          (broadcast ⟨3, ![a, b, 1]⟩ eps)) hb) (ix3 i j k)
      = unitRow (fun q => x (ix3 i j q)) eps k := by
  unfold unitRow
  rw [divf_apply, broadcastTo_ab1_abc_apply, maximumf_apply, broadcast_apply]
  show Ideal.div _ (max (FloatOps.sqrt (shapeCast ⟨3, ![a, b, 1]⟩ (multiReduction .add [2] ⟨2, ![a, b]⟩ (mulf x x) 0x00000000#32 hred hφ hacc) hcast (ix3 i j (0 : Fin 1)))) eps) = _
  rw [shapeCast_ab_ab1_apply, add_axis2_apply]
  simp only [mulf_apply]
  rfl

end Cert.Lib.Keepdims3

end
-- ==== Proof.StepVisCls.lean ====
/-
  The visibility accumulator of the tiled program after one grid point, at the ideal values.

  A tile holds 128 samples × 26 anchors × 93 numbers.  For each lane type t the program cuts the ten visibility
  columns 31 t + 20 … 31 t + 29 out of the prediction tile (p) and the ground-truth tile (g), forms entry by entry
      g · log (p + ε) + (1 − g + ε) · log (1 − p + ε),
  sums the [128, 26, 10] result down to one entry by three one-axis sums (last axis, anchors, samples; each followed
  by a cast that keeps the summed axis as a unit axis), and subtracts the three types' sums one after the other from
  zero.  The last statement adds that value to the accumulator's old contents.

  Read at the accumulator's one index this is  old + (((0 − S₀) − S₁) − S₂)  with  S_t = Σ_r Σ_a Σ_k visAt r a t k:
  a slice reads the source at the shifted column, a pointwise operation acts at the index, a one-axis sum is the sum
  over that axis's coordinate, and a cast between [a, b] and [a, b, 1] keeps the first two coordinates.
-/
import proofs.«103145_j64630667870263_1_alg».proof.Proof.KernelPieces
import proofs.«103145_j64630667870263_1_alg».proof.Proof.Spec
import proofs.«103145_j64630667870263_1_alg».proof.Proof.LibKeepdims3
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StepIdeal23

open Cert.KernelIdeal Cert.KernelIdeal.Gen Cert.KernelIdeal.Pieces Cert.Lane Idealize.ShloMosaic Idealize.ShloMosaic.ValueIdx
open Cert.Lib.Keepdims3

variable {α : Type} {a b c : ℕ}

/-- A rank-3 array cut along its last axis from `o` reads, at (i, j, k), the source at (i, j, o + k). -/
theorem slice3_axis2_apply {m : ℕ} (o : ℕ) (X : (⟨3, ![a, b, c]⟩ : Shape).Idx → α)
    (h : (⟨3, ![a, b, c]⟩ : Shape).Slices ![0, 0, o] ⟨3, ![a, b, m]⟩)
    (i : Fin a) (j : Fin b) (k : Fin m) (q : Fin c) (hq : q.val = o + k.val) :
    extractStridedSlice ⟨3, ![a, b, m]⟩ ![0, 0, o] X h (ix3 i j k) = X (ix3 i j q) :=
  extractStridedSlice_apply _ _ _ _ _ (fun ax => by
    match ax with
    | ⟨0, _⟩ => exact (Nat.zero_add _).symm
    | ⟨1, _⟩ => exact (Nat.zero_add _).symm
    | ⟨2, _⟩ => exact hq)

/-- The sum along the middle axis: at (i, k), the sum over j of the entry (i, j, k). -/
theorem add_axis1_apply {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => ?_
  exact congrArg src (funext fun d => Fin.ext (by match d with | ⟨0, _⟩ => rfl | ⟨1, _⟩ => rfl | ⟨2, _⟩ => rfl))

/-- The sum along the first axis: at (j, k), the sum over i of the entry (i, j, k). -/
theorem add_axis0_apply {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (j : Fin b) (k : Fin c) :
    multiReduction .add [0] ⟨2, ![b, c]⟩ src acc h hφ hacc (ix2 j k) = ∑ i : Fin a, src (ix3 i j k) := by
  refine (Ideal.multiReduction_add_single src acc h hφ hacc (ix2 j k)).trans ?_
  refine Finset.sum_congr rfl fun i _ => ?_
  exact congrArg src (funext fun d => Fin.ext (by match d with | ⟨0, _⟩ => rfl | ⟨1, _⟩ => rfl | ⟨2, _⟩ => rfl))

/-- An array [a, b, 1] cast to [a, b] reads, at (i, j), the array at (i, j, 0). -/
theorem shapeCast_ab1_ab_apply (x : (⟨3, ![a, b, 1]⟩ : Shape).Idx → α) (h : (⟨3, ![a, b, 1]⟩ : Shape).ShapeCasts ⟨2, ![a, b]⟩)
    (i : Fin a) (j : Fin b) : shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- A cast to the same shape reads the array itself. -/
theorem shapeCast_self_apply {s : Shape} (x : s.Idx → α) (h : s.ShapeCasts s) (j : s.Idx) : shapeCast s x h j = x j :=
  shapeCast_apply x h j j rfl

/-- The three one-axis sums with their keep-dimensions casts, as the tiled program writes them: last axis, then the
    anchors, then the samples. -/
def sum3 {c : ℕ} (w : FVec Ideal ⟨3, ![128, 26, c]⟩ .f32)
    (h2 : (⟨3, ![128, 26, c]⟩ : Shape).Reduces [2] S128x26) : FVec Ideal S1x1 .f32 :=
  shapeCast S1x1 (shapeCast S1x1x1 (multiReduction .add [0] S1x1 (shapeCast S128x1x1 (multiReduction .add [1] S128x1
    (shapeCast S128x26x1 (multiReduction .add [2] S128x26 w 0x00000000#32 h2 (.inl rfl) rfl) shapeCasts_S128x26_S128x26x1)
    0x00000000#32 reduces_S128x26x1_S128x1 (.inl rfl) rfl) shapeCasts_S128x1_S128x1x1)
    0x00000000#32 reduces_S128x1x1_S1x1 (.inl rfl) rfl) shapeCasts_S1x1_S1x1x1) shapeCasts_S1x1x1_S1x1

/-- Read at its one index, the chain is the sum over every entry. -/
theorem sum3_apply {c : ℕ} (w : FVec Ideal ⟨3, ![128, 26, c]⟩ .f32)
    (h2 : (⟨3, ![128, 26, c]⟩ : Shape).Reduces [2] S128x26) (j : S1x1.Idx) :
    sum3 w h2 j = ∑ r : Fin 128, ∑ a : Fin 26, ∑ k : Fin c, w (ix3 r a k) := by
  have hj : j = ix2 (0 : Fin 1) (0 : Fin 1) := by
    funext d; match d with
    | ⟨0, _⟩ => exact Fin.ext (Nat.lt_one_iff.1 (j 0).isLt)
    | ⟨1, _⟩ => exact Fin.ext (Nat.lt_one_iff.1 (j 1).isLt)
  subst hj
  unfold sum3
  refine (shapeCast_ab1_ab_apply _ _ _ _).trans ?_
  refine (shapeCast_ab_ab1_apply _ _ _ _ _).trans ?_
  refine (add_axis0_apply _ _ _ _ _ _ _).trans ?_
  refine Finset.sum_congr rfl fun r _ => ?_
  refine (shapeCast_ab_ab1_apply _ _ _ _ _).trans ?_
  refine (add_axis1_apply _ _ _ _ _ _ _).trans ?_
  refine Finset.sum_congr rfl fun a _ => ?_
  refine (shapeCast_ab_ab1_apply _ _ _ _ _).trans ?_
  exact add_axis2_apply _ _ _ _ _ _ _

/-- The visibility terms of the ten entries that start at column `o`, formed entry by entry as the tiled program forms
    them: g · log (p + ε) + (1 − g + ε) · log (1 − p + ε). -/
def visW (o : ℕ) (h : S128x26x93.Slices ![0, 0, o] S128x26x10) (x0 x1 : Vec Ideal S128x26x93 .f32) :
    FVec Ideal S128x26x10 .f32 :=
  addf
    (mulf (extractStridedSlice S128x26x10 ![0, 0, o] x1 h)
      (log (addf (extractStridedSlice S128x26x10 ![0, 0, o] x0 h) (broadcast S128x26x10 (Scalar.ofBits .f32 0x3089705F#32)))))
    (mulf
      (addf (subf (broadcast S128x26x10 (Scalar.ofBits .f32 0x3F800000#32)) (extractStridedSlice S128x26x10 ![0, 0, o] x1 h))
        (broadcast S128x26x10 (Scalar.ofBits .f32 0x3089705F#32)))
      (log
        (addf (subf (broadcast S128x26x10 (Scalar.ofBits .f32 0x3F800000#32)) (extractStridedSlice S128x26x10 ![0, 0, o] x0 h))
          (broadcast S128x26x10 (Scalar.ofBits .f32 0x3089705F#32)))))

/-- At (r, a, k) it is the visibility term of lane type t, when the columns start at 31 t + 20. -/
theorem visW_apply (o : ℕ) (t : Fin 3) (ho : o = 31 * t.val + 20) (h : S128x26x93.Slices ![0, 0, o] S128x26x10)
    (x0 x1 : Vec Ideal S128x26x93 .f32) (r : Fin 128) (a : Fin 26) (k : Fin 10) :
    visW o h x0 x1 (ix3 r a k) = visAt x0 x1 r a t k := by
  have hq : (pos t (20 + k.val) (by have := k.isLt; omega)).val = o + k.val := by
    show 31 * t.val + (20 + k.val) = o + k.val
    omega
  have e0 := slice3_axis2_apply o x0 h r a k _ hq
  have e1 := slice3_axis2_apply o x1 h r a k _ hq
  unfold visAt vis
  rw [← e0, ← e1]
  rfl

/-- The first lane type's stage: zero minus the sum of its visibility terms. -/
theorem pay12_eq (x0 x1 : Vec Ideal S128x26x93 .f32) :
    k0_pay12 (F := Ideal) x0 x1
      = subf (broadcast S1x1 (Scalar.ofBits .f32 0x00000000#32))
          (sum3 (visW 20 slices_S128x26x93_o0_0_20_S128x26x10 x0 x1) reduces_S128x26x10_S128x26) := rfl

/-- The second lane type's stage: the running value minus the sum of its visibility terms. -/
theorem pay23_eq (v36 : FVec Ideal S1x1 .f32) (x0 x1 : Vec Ideal S128x26x93 .f32) :
    k0_pay23 (F := Ideal) v36 (k0_pay18 x0) (k0_pay19 x1) (k0_pay22 x0 x1)
      = subf v36 (sum3 (visW 51 slices_S128x26x93_o0_0_51_S128x26x10 x0 x1) reduces_S128x26x10_S128x26) := rfl

/-- The third lane type's stage. -/
theorem pay34_eq (x0 x1 : Vec Ideal S128x26x93 .f32) (v106 : FVec Ideal S1x1 .f32) :
    k0_pay34 (F := Ideal) x0 x1 v106
      = subf v106 (sum3 (visW 82 slices_S128x26x93_o0_0_82_S128x26x10 x0 x1) reduces_S128x26x10_S128x26) := rfl

/-- The sum of a lane type's visibility terms over the tile. -/
theorem sum3_visW (o : ℕ) (t : Fin 3) (ho : o = 31 * t.val + 20) (h : S128x26x93.Slices ![0, 0, o] S128x26x10)
    (x0 x1 : Vec Ideal S128x26x93 .f32) (j : S1x1.Idx) :
    sum3 (visW o h x0 x1) reduces_S128x26x10_S128x26 j
      = ∑ r : Fin 128, ∑ a : Fin 26, ∑ k : Fin 10, visAt x0 x1 r a t k := by
  refine (sum3_apply _ _ j).trans ?_
  refine Finset.sum_congr rfl fun r _ => Finset.sum_congr rfl fun a _ => Finset.sum_congr rfl fun k _ => ?_
  exact visW_apply o t ho h x0 x1 r a k

/-- The visibility accumulator after a grid point: its old contents plus the tile's value. -/
theorem step2_apply (x0 x1 : Vec Ideal S128x26x93 .f32) (xo : Vec Ideal S1x1 .f32) (j : S1x1.Idx) :
    step2 (F := Ideal) x0 x1 xo j = xo j + tileVis x0 x1 := by
  unfold step2
  rw [pay12_eq, pay23_eq, pay34_eq]
  unfold k0_pay37
  show shapeCast S1x1 xo shapeCasts_S1x1_S1x1 j
      + (((Ideal.ofBits .f32 0x00000000#32
            - sum3 (visW 20 slices_S128x26x93_o0_0_20_S128x26x10 x0 x1) reduces_S128x26x10_S128x26 j)
          - sum3 (visW 51 slices_S128x26x93_o0_0_51_S128x26x10 x0 x1) reduces_S128x26x10_S128x26 j)
        - sum3 (visW 82 slices_S128x26x93_o0_0_82_S128x26x10 x0 x1) reduces_S128x26x10_S128x26 j) = _
  rw [shapeCast_self_apply, Ideal.ofBits_zero_f32, sum3_visW 20 0 (by decide), sum3_visW 51 1 (by decide),
    sum3_visW 82 2 (by decide)]
  rfl

end Cert.KernelIdeal.StepIdeal23

end
-- ==== Proof.StepL1.lean ====
/-
  The offset accumulator of the tiled program, read at the exact (extended-real) values.

  For each of the three lane types the program takes, over one tile of 128 samples and 26 anchors, the difference
  d = p − g of the twenty offset columns, cuts it into its two halves d[0:10] and d[10:20], multiplies each half entry by
  entry with the mask g_c · g_v (the class column repeated along the ten visibility columns), and adds the two absolute
  values:  |g_c g_v d_k| + |g_c g_v d_{10+k}|  for each slot k.  That array is summed along its last axis, then along
  the anchors, then along the samples, each one-axis sum followed by a cast that keeps the summed axis as a unit axis.
  The three types' totals are added to a zero one after the other, and the result is added to the accumulator's old
  value.  At the exact values an absolute value is max a (−a), a one-axis sum is a finite sum over that coordinate, and
  the casts and cuts only rename indices; so the new value is the old one plus ((0 + T₀) + T₁) + T₂ with
  T_t = Σ_r Σ_a Σ_k (l1 at slot k + l1 at slot 10 + k) — the tile's offset value as the shared vocabulary names it.
-/
import proofs.«103145_j64630667870263_1_alg».proof.Proof.KernelPieces
import proofs.«103145_j64630667870263_1_alg».proof.Proof.Spec
import proofs.«103145_j64630667870263_1_alg».proof.Proof.LibKeepdims3
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StepIdeal4

open Cert.KernelIdeal Cert.KernelIdeal.Gen Cert.KernelIdeal.Pieces Cert.Lane Idealize.ShloMosaic Idealize.ShloMosaic.ValueIdx
open Cert.Lib.Keepdims3

/-- The sum along axis 1 of [a, b, 1]: at (i, u), the sum over j of the entry (i, j, u). -/
theorem add_axis1_apply {a b : ℕ} {φ : FTy} (src : FVec Ideal ⟨3, ![a, b, 1]⟩ φ) (acc : BitVec φ.bits)
    (h : (⟨3, ![a, b, 1]⟩ : Shape).Reduces [1] ⟨2, ![a, 1]⟩) (hφ : FKind.Formats φ) (hacc : acc = FKind.add.neutral φ hφ)
    (i : Fin a) (u : Fin 1) :
    multiReduction .add [1] ⟨2, ![a, 1]⟩ src acc h hφ hacc (ix2 i u) = ∑ j : Fin b, src (ix3 i j u) := by
  refine (Ideal.multiReduction_add_single src acc h hφ hacc (ix2 i u)).trans ?_
  refine Finset.sum_congr rfl fun k _ => ?_
  exact congrArg src (funext fun d => Fin.ext (by match d with | ⟨0, _⟩ => rfl | ⟨1, _⟩ => rfl | ⟨2, _⟩ => rfl))

/-- The sum along axis 0 of [a, 1, 1]: at (u, v), the sum over i of the entry (i, u, v). -/
theorem add_axis0_apply {a : ℕ} {φ : FTy} (src : FVec Ideal ⟨3, ![a, 1, 1]⟩ φ) (acc : BitVec φ.bits)
    (h : (⟨3, ![a, 1, 1]⟩ : Shape).Reduces [0] ⟨2, ![1, 1]⟩) (hφ : FKind.Formats φ) (hacc : acc = FKind.add.neutral φ hφ)
    (u v : Fin 1) :
    multiReduction .add [0] ⟨2, ![1, 1]⟩ src acc h hφ hacc (ix2 u v) = ∑ i : Fin a, src (ix3 i u v) := by
  refine (Ideal.multiReduction_add_single src acc h hφ hacc (ix2 u v)).trans ?_
  refine Finset.sum_congr rfl fun k _ => ?_
  exact congrArg src (funext fun d => Fin.ext (by match d with | ⟨0, _⟩ => rfl | ⟨1, _⟩ => rfl | ⟨2, _⟩ => rfl))

/-- The three one-axis sums with their keep-dimensions casts, as the tiled program spells them. -/
def sum3 (v : FVec Ideal S128x26x10 .f32) : FVec Ideal S1x1 .f32 :=
  shapeCast S1x1
    (shapeCast S1x1x1
      (multiReduction .add [0] S1x1
        (shapeCast S128x1x1
          (multiReduction .add [1] S128x1
            (shapeCast S128x26x1
              (multiReduction .add [2] S128x26 v 0x00000000#32 reduces_S128x26x10_S128x26 (.inl rfl) rfl)
              shapeCasts_S128x26_S128x26x1)
            0x00000000#32 reduces_S128x26x1_S128x1 (.inl rfl) rfl)
          shapeCasts_S128x1_S128x1x1)
        0x00000000#32 reduces_S128x1x1_S1x1 (.inl rfl) rfl)
      shapeCasts_S1x1_S1x1x1)
    shapeCasts_S1x1x1_S1x1

/-- Read at its one index, the staged sum is the triple sum over samples, anchors and slots. -/
theorem sum3_apply (v : FVec Ideal S128x26x10 .f32) (j : S1x1.Idx) :
    sum3 v j = ∑ r : Fin 128, ∑ a : Fin 26, ∑ k : Fin 10, v (ix3 r a k) := by
  unfold sum3
  rw [shapeCast_shapeCast]
  rw [eq_ix2 j]
  refine (add_axis0_apply _ _ _ _ _ (j 0) (j 1)).trans ?_
  refine Finset.sum_congr rfl fun r _ => ?_
  refine (shapeCast_ab_ab1_apply _ _ r (j 0) (j 1)).trans ?_
  refine (add_axis1_apply _ _ _ _ _ r (j 0)).trans ?_
  refine Finset.sum_congr rfl fun a _ => ?_
  refine (shapeCast_ab_ab1_apply _ _ r a (j 0)).trans ?_
  exact add_axis2_apply _ _ _ _ _ r a

/-- A cut of the last axis of a lane array from column o reads, at (r, a, k), the array at (r, a, o + k). -/
theorem slice_last_apply {α : Type} {n m : ℕ} (o : ℕ) (X : (⟨3, ![128, 26, n]⟩ : Shape).Idx → α)
    (h : (⟨3, ![128, 26, n]⟩ : Shape).Slices ![0, 0, o] ⟨3, ![128, 26, m]⟩)
    (r : Fin 128) (a : Fin 26) (k : Fin m) (c : Fin n) (hc : c.val = o + k.val) :
    extractStridedSlice ⟨3, ![128, 26, m]⟩ ![0, 0, o] X h (ix3 r a k) = X (ix3 r a c) :=
  extractStridedSlice_apply _ _ _ _ _ (fun ax => by
    match ax with
    | ⟨0, _⟩ => exact (Nat.zero_add _).symm
    | ⟨1, _⟩ => exact (Nat.zero_add _).symm
    | ⟨2, _⟩ => exact hc)

/-- The pointwise offset term of one lane type: with d = pa − ga over the twenty offset columns, gc the class column
    and gv the ten visibility columns, |(gc·gv)·d[0:10]| + |(gc·gv)·d[10:20]|. -/
def term (gc : FVec Ideal S128x26x1 .f32) (gv : FVec Ideal S128x26x10 .f32) (pa ga : FVec Ideal S128x26x20 .f32) :
    FVec Ideal S128x26x10 .f32 :=
  addf
    (absf (mulf (mulf (broadcastTo S128x26x10 gc broadcasts_S128x26x1_S128x26x10) gv)
      (extractStridedSlice S128x26x10 ![0, 0, 0] (subf pa ga) slices_S128x26x20_o0_0_0_S128x26x10)))
    (absf (mulf (mulf (broadcastTo S128x26x10 gc broadcasts_S128x26x1_S128x26x10) gv)
      (extractStridedSlice S128x26x10 ![0, 0, 10] (subf pa ga) slices_S128x26x20_o0_0_10_S128x26x10)))

/-- The term at (r, a, k): the two masked absolute differences of offset slots k and 10 + k. -/
theorem term_apply (gc : FVec Ideal S128x26x1 .f32) (gv : FVec Ideal S128x26x10 .f32) (pa ga : FVec Ideal S128x26x20 .f32)
    (r : Fin 128) (a : Fin 26) (k : Fin 10) :
    term gc gv pa ga (ix3 r a k)
      = l1 (gc (ix3 r a (0 : Fin 1))) (gv (ix3 r a k)) (pa (ix3 r a (lo k)) - ga (ix3 r a (lo k)))
        + l1 (gc (ix3 r a (0 : Fin 1))) (gv (ix3 r a k)) (pa (ix3 r a (hi k)) - ga (ix3 r a (hi k))) := by
  have hb : broadcastTo S128x26x10 gc broadcasts_S128x26x1_S128x26x10 (ix3 r a k) = gc (ix3 r a (0 : Fin 1)) :=
    broadcastTo_ab1_abc_apply gc _ r a k
  have h1 : extractStridedSlice S128x26x10 ![0, 0, 0] (subf pa ga) slices_S128x26x20_o0_0_0_S128x26x10 (ix3 r a k)
      = pa (ix3 r a (lo k)) - ga (ix3 r a (lo k)) :=
    slice_last_apply 0 (subf pa ga) _ r a k (lo k) (Nat.zero_add _).symm
  have h2 : extractStridedSlice S128x26x10 ![0, 0, 10] (subf pa ga) slices_S128x26x20_o0_0_10_S128x26x10 (ix3 r a k)
      = pa (ix3 r a (hi k)) - ga (ix3 r a (hi k)) :=
    slice_last_apply 10 (subf pa ga) _ r a k (hi k) rfl
  show max ((broadcastTo S128x26x10 gc broadcasts_S128x26x1_S128x26x10 (ix3 r a k) * gv (ix3 r a k))
        * extractStridedSlice S128x26x10 ![0, 0, 0] (subf pa ga) slices_S128x26x20_o0_0_0_S128x26x10 (ix3 r a k))
      (-((broadcastTo S128x26x10 gc broadcasts_S128x26x1_S128x26x10 (ix3 r a k) * gv (ix3 r a k))
        * extractStridedSlice S128x26x10 ![0, 0, 0] (subf pa ga) slices_S128x26x20_o0_0_0_S128x26x10 (ix3 r a k)))
    + max ((broadcastTo S128x26x10 gc broadcasts_S128x26x1_S128x26x10 (ix3 r a k) * gv (ix3 r a k))
        * extractStridedSlice S128x26x10 ![0, 0, 10] (subf pa ga) slices_S128x26x20_o0_0_10_S128x26x10 (ix3 r a k))
      (-((broadcastTo S128x26x10 gc broadcasts_S128x26x1_S128x26x10 (ix3 r a k) * gv (ix3 r a k))
        * extractStridedSlice S128x26x10 ![0, 0, 10] (subf pa ga) slices_S128x26x20_o0_0_10_S128x26x10 (ix3 r a k))) = _
  rw [hb, h1, h2]
  rfl

/-- One lane type's term at (r, a, k), read off the two lane arrays: the class column of type t is column 31 t + 30,
    its visibility columns start at 31 t + 20 and its offset columns at 31 t. -/
theorem type_term_apply (x0 x1 : Vec Ideal S128x26x93 .f32) (t : Fin 3) (oo ov oc : ℕ)
    (hoo : oo = 31 * t.val) (hov : ov = 31 * t.val + 20) (hoc : oc = 31 * t.val + 30)
    (hs1 : S128x26x93.Slices ![0, 0, oc] S128x26x1) (hs2 : S128x26x93.Slices ![0, 0, ov] S128x26x10)
    (hs3 : S128x26x93.Slices ![0, 0, oo] S128x26x20) (r : Fin 128) (a : Fin 26) (k : Fin 10) :
    term (extractStridedSlice S128x26x1 ![0, 0, oc] x1 hs1) (extractStridedSlice S128x26x10 ![0, 0, ov] x1 hs2)
        (extractStridedSlice S128x26x20 ![0, 0, oo] x0 hs3) (extractStridedSlice S128x26x20 ![0, 0, oo] x1 hs3) (ix3 r a k)
      = l1At x0 x1 r a t k (lo k) + l1At x0 x1 r a t k (hi k) := by
  have hk := k.isLt
  have e1 : extractStridedSlice S128x26x1 ![0, 0, oc] x1 hs1 (ix3 r a (0 : Fin 1)) = x1 (ix3 r a (pos t 30 (by omega))) :=
    slice_last_apply oc x1 hs1 r a 0 _ (by show 31 * t.val + 30 = oc + 0; omega)
  have e2 : extractStridedSlice S128x26x10 ![0, 0, ov] x1 hs2 (ix3 r a k) = x1 (ix3 r a (pos t (20 + k.val) (by omega))) :=
    slice_last_apply ov x1 hs2 r a k _ (by show 31 * t.val + (20 + k.val) = ov + k.val; omega)
  have e3 : ∀ (X : Vec Ideal S128x26x93 .f32) (q : Fin 20),
      extractStridedSlice S128x26x20 ![0, 0, oo] X hs3 (ix3 r a q) = X (ix3 r a (pos t q.val (by have := q.isLt; omega))) :=
    fun X q => slice_last_apply oo X hs3 r a q _ (by show 31 * t.val + q.val = oo + q.val; omega)
  rw [term_apply, e1, e2, e3 x0 (lo k), e3 x1 (lo k), e3 x0 (hi k), e3 x1 (hi k)]
  rfl

/-- One lane type's staged sum: the triple sum of the spec's two offset terms per slot. -/
theorem type_sum (x0 x1 : Vec Ideal S128x26x93 .f32) (t : Fin 3) (oo ov oc : ℕ)
    (hoo : oo = 31 * t.val) (hov : ov = 31 * t.val + 20) (hoc : oc = 31 * t.val + 30)
    (hs1 : S128x26x93.Slices ![0, 0, oc] S128x26x1) (hs2 : S128x26x93.Slices ![0, 0, ov] S128x26x10)
    (hs3 : S128x26x93.Slices ![0, 0, oo] S128x26x20) (j : S1x1.Idx) :
    sum3 (term (extractStridedSlice S128x26x1 ![0, 0, oc] x1 hs1) (extractStridedSlice S128x26x10 ![0, 0, ov] x1 hs2)
        (extractStridedSlice S128x26x20 ![0, 0, oo] x0 hs3) (extractStridedSlice S128x26x20 ![0, 0, oo] x1 hs3)) j
      = ∑ r : Fin 128, ∑ a : Fin 26, ∑ k : Fin 10, (l1At x0 x1 r a t k (lo k) + l1At x0 x1 r a t k (hi k)) := by
  rw [sum3_apply]
  exact Finset.sum_congr rfl fun r _ => Finset.sum_congr rfl fun a _ => Finset.sum_congr rfl fun k _ =>
    type_term_apply x0 x1 t oo ov oc hoo hov hoc hs1 hs2 hs3 r a k

/-- The composite, with each lane type's arithmetic gathered into the term and the staged sum. -/
theorem step4_eq (x0 x1 : Vec Ideal S128x26x93 .f32) (xo : Vec Ideal S1x1 .f32) :
    step4 (F := Ideal) x0 x1 xo
      = addf (shapeCast S1x1 xo shapeCasts_S1x1_S1x1)
          (addf (addf (addf (k0_pay6 (F := Ideal))
            (sum3 (term (k0_pay11 x1) (k0_pay9 x1) (k0_pay7 x0) (k0_pay8 x1))))
            (sum3 (term (k0_pay21 x1) (k0_pay19 x1) (k0_pay16 x0) (k0_pay17 x1))))
            (sum3 (term (k0_pay33 x1) (k0_pay31 x1) (k0_pay29 x0) (k0_pay30 x1)))) := rfl

/-- The offset accumulator after a grid point: its old value plus the tile's offset value. -/
theorem step4_apply (x0 x1 : Vec Ideal S128x26x93 .f32) (xo : Vec Ideal S1x1 .f32) (j : S1x1.Idx) :
    step4 (F := Ideal) x0 x1 xo j = xo j + tileL1 x0 x1 := by
  have s0 : sum3 (term (k0_pay11 x1) (k0_pay9 x1) (k0_pay7 x0) (k0_pay8 x1)) j = _ :=
    type_sum x0 x1 0 0 20 30 rfl rfl rfl slices_S128x26x93_o0_0_30_S128x26x1 slices_S128x26x93_o0_0_20_S128x26x10
      slices_S128x26x93_o0_0_0_S128x26x20 j
  have s1 : sum3 (term (k0_pay21 x1) (k0_pay19 x1) (k0_pay16 x0) (k0_pay17 x1)) j = _ :=
    type_sum x0 x1 1 31 51 61 rfl rfl rfl slices_S128x26x93_o0_0_61_S128x26x1 slices_S128x26x93_o0_0_51_S128x26x10
      slices_S128x26x93_o0_0_31_S128x26x20 j
  have s2 : sum3 (term (k0_pay33 x1) (k0_pay31 x1) (k0_pay29 x0) (k0_pay30 x1)) j = _ :=
    type_sum x0 x1 2 62 82 92 rfl rfl rfl slices_S128x26x93_o0_0_92_S128x26x1 slices_S128x26x93_o0_0_82_S128x26x10
      slices_S128x26x93_o0_0_62_S128x26x20 j
  have hz : (k0_pay6 (F := Ideal)) j = 0 := Ideal.ofBits_zero_f32
  rw [step4_eq]
  show shapeCast S1x1 xo shapeCasts_S1x1_S1x1 j
      + ((((k0_pay6 (F := Ideal)) j + sum3 (term (k0_pay11 x1) (k0_pay9 x1) (k0_pay7 x0) (k0_pay8 x1)) j)
        + sum3 (term (k0_pay21 x1) (k0_pay19 x1) (k0_pay16 x0) (k0_pay17 x1)) j)
        + sum3 (term (k0_pay33 x1) (k0_pay31 x1) (k0_pay29 x0) (k0_pay30 x1)) j) = _
  rw [shapeCast_self, s0, s1, s2, hz]
  rfl

end Cert.KernelIdeal.StepIdeal4

end
-- ==== Proof.RefValue.lean ====
/-
  The reference program's values, in the coordinates of the shared vocabulary.

  The reference reshapes each lane array [8192, 26, 93] to [8192, 26, 3, 31] and slices the last axis into the
  offsets (entries 0..19), the visibilities (entries 20..29) and the class probability (entry 30).  Row-major
  re-indexing sends entry (n, a, t, o) of the reshaped array to entry (n, a, 31 t + o) of the original, which is
  the position the vocabulary calls `pos t o`.  With the index maps identified, each elementwise stage read at
  (n, a, t, k) is the corresponding term of the vocabulary, and each reduction to a scalar is the initial value
  plus the fourfold sum over the coordinates.
-/
import proofs.«103145_j64630667870263_1_alg».proof.Proof.Gen.ReferenceIdeal.Read
import proofs.«103145_j64630667870263_1_alg».proof.Proof.Spec
import Idealize.ShloMosaic.Lib.ValueIdx
import Idealize.ShloMosaic.Lib.Pipeline.Value
import Idealize.ShloMosaic.PureOps.Ideal.Laws

noncomputable section

namespace Cert.Lane.RefValue

open Cert.ReferenceIdeal Cert.ReferenceIdeal.Read Idealize.ShloMosaic Idealize.ShloMosaic.ValueIdx Cert.Lane

variable (P Q : FVec Ideal Cert.ReferenceIdeal.S8192x26x93 .f32)

/-! ## The reshape followed by a slice, as a map of coordinates -/

/-- The visibility slice (offset 20, width 10) of the reshaped array, in the vocabulary's coordinates. -/
theorem idx_vis (n : Fin 8192) (a : Fin 26) (t : Fin 3) (k : Fin 10) :
    idx_main_v0 (idx_main_v4 (ix4 n a t k)) = ix3 n a (pos t (20 + k.val) (by have := k.isLt; omega)) := by
  have hn := n.isLt; have ha := a.isLt; have ht := t.isLt; have hk := k.isLt
  funext d
  match d with
  | ⟨0, _⟩ =>
    apply Fin.ext
    show (((n.val * 26 + a.val) * 3 + t.val) * 31 + (20 + k.val)) / 2418 = n.val
    omega
  | ⟨1, _⟩ =>
    apply Fin.ext
    show (((n.val * 26 + a.val) * 3 + t.val) * 31 + (20 + k.val)) / 93 % 26 = a.val
    omega
  | ⟨2, _⟩ =>
    apply Fin.ext
    show (((n.val * 26 + a.val) * 3 + t.val) * 31 + (20 + k.val)) % 93 = 31 * t.val + (20 + k.val)
    omega

/-- The class slice (offset 30, width 1) of the reshaped array, in the vocabulary's coordinates. -/
theorem idx_cls (n : Fin 8192) (a : Fin 26) (t : Fin 3) :
    idx_main_v0 (idx_main_v2 (ix4 n a t (0 : Fin 1))) = ix3 n a (pos t 30 (by omega)) := by
  have hn := n.isLt; have ha := a.isLt; have ht := t.isLt
  funext d
  match d with
  | ⟨0, _⟩ =>
    apply Fin.ext
    show (((n.val * 26 + a.val) * 3 + t.val) * 31 + (30 + 0)) / 2418 = n.val
    omega
  | ⟨1, _⟩ =>
    apply Fin.ext
    show (((n.val * 26 + a.val) * 3 + t.val) * 31 + (30 + 0)) / 93 % 26 = a.val
    omega
  | ⟨2, _⟩ =>
    apply Fin.ext
    show (((n.val * 26 + a.val) * 3 + t.val) * 31 + (30 + 0)) % 93 = 31 * t.val + 30
    omega

/-- The offset slice (offset 0, width 20) of the reshaped array, in the vocabulary's coordinates. -/
theorem idx_off (n : Fin 8192) (a : Fin 26) (t : Fin 3) (j : Fin 20) :
    idx_main_v0 (idx_main_v3 (ix4 n a t j)) = ix3 n a (pos t j.val (by have := j.isLt; omega)) := by
  have hn := n.isLt; have ha := a.isLt; have ht := t.isLt; have hj := j.isLt
  funext d
  match d with
  | ⟨0, _⟩ =>
    apply Fin.ext
    show (((n.val * 26 + a.val) * 3 + t.val) * 31 + j.val) / 2418 = n.val
    omega
  | ⟨1, _⟩ =>
    apply Fin.ext
    show (((n.val * 26 + a.val) * 3 + t.val) * 31 + j.val) / 93 % 26 = a.val
    omega
  | ⟨2, _⟩ =>
    apply Fin.ext
    show (((n.val * 26 + a.val) * 3 + t.val) * 31 + j.val) % 93 = 31 * t.val + j.val
    omega

/-! ## The four logarithm arguments -/

/-- The argument of the first visibility logarithm: p_v + ε. -/
theorem arg_v9 (n : Fin 8192) (a : Fin 26) (t : Fin 3) (k : Fin 10) :
    val_main_v9 (F := Ideal) P (ix4 n a t k) = P (ix3 n a (pos t (20 + k.val) (by have := k.isLt; omega))) + eps := by
  rw [val_main_v9_apply, val_main_v4_apply, val_main_v0_apply, val_main_v8_apply, val_main_cst_apply, idx_vis]
  rfl

/-- The argument of the second visibility logarithm: 1 − p_v + ε. -/
theorem arg_v19 (n : Fin 8192) (a : Fin 26) (t : Fin 3) (k : Fin 10) :
    val_main_v19 (F := Ideal) P (ix4 n a t k) = one - P (ix3 n a (pos t (20 + k.val) (by have := k.isLt; omega))) + eps := by
  rw [val_main_v19_apply, val_main_v17_apply, val_main_v16_apply, val_main_cst_2_apply, val_main_v4_apply,
    val_main_v0_apply, val_main_v18_apply, val_main_cst_3_apply, idx_vis]
  rfl

/-- The argument of the first class logarithm: p_c + ε. -/
theorem arg_v27 (n : Fin 8192) (a : Fin 26) (t : Fin 3) :
    val_main_v27 (F := Ideal) P (ix4 n a t (0 : Fin 1)) = P (ix3 n a (pos t 30 (by omega))) + eps := by
  rw [val_main_v27_apply, val_main_v2_apply, val_main_v0_apply, val_main_v26_apply, val_main_cst_6_apply, idx_cls]
  rfl

/-- The argument of the second class logarithm: 1 − p_c + ε. -/
theorem arg_v35 (n : Fin 8192) (a : Fin 26) (t : Fin 3) :
    val_main_v35 (F := Ideal) P (ix4 n a t (0 : Fin 1)) = one - P (ix3 n a (pos t 30 (by omega))) + eps := by
  rw [val_main_v35_apply, val_main_v33_apply, val_main_v32_apply, val_main_cst_8_apply, val_main_v2_apply,
    val_main_v0_apply, val_main_v34_apply, val_main_cst_9_apply, idx_cls]
  rfl

/-! ## A sum over a rank-4 index set is the fourfold sum over the coordinates -/

/-- A rank-4 index set is the product of its four coordinate ranges. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- So a sum over it is the fourfold sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-! ## The visibility loss -/

/-- The ground truth's visibility entry, read through its own reshape and slice. -/
theorem gt_vis (n : Fin 8192) (a : Fin 26) (t : Fin 3) (k : Fin 10) :
    val_main_v7 (F := Ideal) Q (ix4 n a t k) = Q (ix3 n a (pos t (20 + k.val) (by have := k.isLt; omega))) := by
  rw [val_main_v7_apply, val_main_v1_apply]
  exact congrArg Q (idx_vis n a t k)

/-- The summand of the visibility reduction is the vocabulary's visibility term. -/
theorem v22_at (n : Fin 8192) (a : Fin 26) (t : Fin 3) (k : Fin 10) :
    val_main_v22 (F := Ideal) P Q (ix4 n a t k) = visAt P Q n a t k := by
  rw [val_main_v22_apply, val_main_v11_apply, val_main_v10_apply, val_main_v21_apply, val_main_v20_apply,
    val_main_v15_apply, val_main_v13_apply, val_main_v12_apply, val_main_cst_0_apply, val_main_v14_apply,
    val_main_cst_1_apply, arg_v9, arg_v19, gt_vis]
  rfl

/-- The first result: the visibility terms summed over every entry, negated, divided by ten. -/
theorem loss0 : val_main_v25 (F := Ideal) P Q ix0 = wLoss0 P Q := by
  rw [val_main_v25_apply, val_main_v24_apply, val_main_v23_apply, val_main_cst_4_apply, val_main_cst_5_apply,
    sum_idx4]
  simp only [v22_at, Ideal.ofBits_def, Ideal.ofBits_zero_f32, Ideal.hostDivf_def, Ideal.hostNegf_def, Ideal.negf_def]
  rfl

/-! ## The class loss -/

/-- The ground truth's class entry, read through its own reshape and slice. -/
theorem gt_cls (n : Fin 8192) (a : Fin 26) (t : Fin 3) :
    val_main_v5 (F := Ideal) Q (ix4 n a t (0 : Fin 1)) = Q (ix3 n a (pos t 30 (by omega))) := by
  rw [val_main_v5_apply, val_main_v1_apply]
  exact congrArg Q (idx_cls n a t)

/-- The summand of the class reduction is the vocabulary's class term. -/
theorem v38_at (n : Fin 8192) (a : Fin 26) (t : Fin 3) :
    val_main_v38 (F := Ideal) P Q (ix4 n a t (0 : Fin 1)) = clsAt P Q n a t := by
  rw [val_main_v38_apply, val_main_v29_apply, val_main_v28_apply, val_main_v37_apply, val_main_v36_apply,
    val_main_v31_apply, val_main_v30_apply, val_main_cst_7_apply, arg_v27, arg_v35, gt_cls]
  rfl

/-- The second result: the class terms summed over every entry (the last axis has one entry), negated. -/
theorem loss1 : val_main_v40 (F := Ideal) P Q ix0 = wLoss1 P Q := by
  rw [val_main_v40_apply, val_main_v39_apply, val_main_cst_10_apply, sum_idx4]
  simp only [Fin.sum_univ_one, v38_at, Ideal.ofBits_def, Ideal.ofBits_zero_f32, Ideal.hostNegf_def, Ideal.negf_def]
  rfl

/-! ## The offset loss -/

/-- The visibility slice laid twice along the last axis: entry j of the doubled array is entry j of the slice
    when j < 10 and entry j − 10 otherwise, which in both cases is entry j modulo ten. -/
theorem v41_at (n : Fin 8192) (a : Fin 26) (t : Fin 3) (j : Fin 20) :
    val_main_v41 (F := Ideal) Q (ix4 n a t j) = val_main_v7 (F := Ideal) Q (ix4 n a t (slot j)) := by
  have hjlt := j.isLt
  unfold val_main_v41
  generalize val_main_v7 (F := Ideal) Q = y
  by_cases hj : j.val < 10
  · have hs : slot j = ⟨j.val, hj⟩ := Fin.ext (Nat.mod_eq_of_lt hj)
    rw [hs]
    refine concatenate_pair_apply_left _ y y _ (ix4 n a t j) rfl (ix4 n a t ⟨j.val, hj⟩) ?_
    intro b
    match b with
    | ⟨0, _⟩ => rfl
    | ⟨1, _⟩ => rfl
    | ⟨2, _⟩ => rfl
    | ⟨3, _⟩ => rfl
  · have hs : slot j = ⟨j.val - 10, by omega⟩ := Fin.ext (by show j.val % 10 = j.val - 10; omega)
    rw [hs]
    refine concatenate_pair_apply_right _ y y _ (ix4 n a t j) rfl rfl (ix4 n a t ⟨j.val - 10, by omega⟩) ?_ ?_
    · intro b hb
      match b, hb with
      | ⟨0, _⟩, _ => rfl
      | ⟨1, _⟩, _ => rfl
      | ⟨2, _⟩, _ => rfl
      | ⟨3, _⟩, hb => exact absurd rfl hb
    · show (j.val - 10) + 10 = j.val
      omega

/-- The class column broadcast along the last axis reads the column's one entry. -/
theorem idx_bcast (n : Fin 8192) (a : Fin 26) (t : Fin 3) (j : Fin 20) :
    idx_main_v42 (ix4 n a t j) = ix4 n a t (0 : Fin 1) := by
  funext d
  match d with
  | ⟨0, _⟩ => rfl
  | ⟨1, _⟩ => rfl
  | ⟨2, _⟩ => rfl
  | ⟨3, _⟩ => rfl

/-- The prediction's offset entry. -/
theorem pr_off (n : Fin 8192) (a : Fin 26) (t : Fin 3) (j : Fin 20) :
    val_main_v3 (F := Ideal) P (ix4 n a t j) = P (ix3 n a (pos t j.val (by have := j.isLt; omega))) := by
  rw [val_main_v3_apply, val_main_v0_apply, idx_off]

/-- The ground truth's offset entry. -/
theorem gt_off (n : Fin 8192) (a : Fin 26) (t : Fin 3) (j : Fin 20) :
    val_main_v6 (F := Ideal) Q (ix4 n a t j) = Q (ix3 n a (pos t j.val (by have := j.isLt; omega))) := by
  rw [val_main_v6_apply, val_main_v1_apply]
  exact congrArg Q (idx_off n a t j)

/-- The summand of the offset reduction is the vocabulary's masked absolute error, the mask taken at the
    visibility slot j modulo ten. -/
theorem v46_at (n : Fin 8192) (a : Fin 26) (t : Fin 3) (j : Fin 20) :
    val_main_v46 (F := Ideal) P Q (ix4 n a t j) = l1At P Q n a t (slot j) j := by
  rw [val_main_v46_apply, val_main_v45_apply, val_main_v43_apply, val_main_v44_apply, val_main_v42_apply,
    idx_bcast, gt_cls, v41_at, gt_vis, pr_off, gt_off]
  rfl

/-- The third result: the masked absolute offset errors summed over every entry. -/
theorem loss2 : val_main_v47 (F := Ideal) P Q ix0 = wLoss2 P Q := by
  rw [val_main_v47_apply, val_main_cst_11_apply, sum_idx4]
  simp only [v46_at, Ideal.ofBits_def, Ideal.ofBits_zero_f32]
  rfl

/-! ## The total -/

/-- The reference's output: the three results added in order. -/
theorem total : val_main_v49 (F := Ideal) P Q ix0 = (wLoss0 P Q + wLoss1 P Q) + wLoss2 P Q := by
  rw [val_main_v49_apply, val_main_v48_apply, loss0, loss1, loss2]
  rfl

end Cert.Lane.RefValue

end
-- ==== Proof.RealSums.lean ====
/-
  Sums of extended reals all of whose terms are real numbers: such a sum is the real sum, and
  negation and subtraction pass through it as they do over the reals.
-/
import Mathlib

namespace Cert.Lane.RealSums

open Finset

/-- A finite sum of coerced reals is the coercion of the real sum. -/
theorem coe_sum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

end Cert.Lane.RealSums
-- ==== Proof.Bridge.lean ====
/-
  The tiled and the all-at-once forms of the three results agree.

  Both forms add up the same per-entry terms; they differ in the order of the additions and in where the sign is applied.
  The tiled form walks the 8192 samples in 64 tiles of 128 and, inside a tile, subtracts the three lane types' sums one
  after the other from zero (adds them, for the offset term); the all-at-once form sums over every sample, anchor, type
  and slot and negates the total once.

  For the offset term only additions occur, and the extended reals are a commutative additive monoid, so the two forms
  agree by re-indexing alone: sample n = 128 b + r, the three types written out, and the twenty offsets j grouped by the
  visibility j mod 10 that masks them (j = k and j = 10 + k for each k < 10).

  For the visibility and class terms a sign has to pass through a sum, and on the extended reals -(x + y) = -x - y fails
  when x and y are opposite infinities. It holds when every summand is a real number. That is what the hypotheses give:
  predictions and truths are real, the shift ε and the word of 1 are real, and each logarithm is taken at a positive
  argument, where the extended logarithm is the real one. Every term is then the image of a real number, every sum of
  terms the image of the real sum, and the identity is one between real numbers.
-/
import Mathlib
import proofs.«103145_j64630667870263_1_alg».proof.Proof.Spec
import proofs.«103145_j64630667870263_1_alg».proof.Proof.LibRowBlocks
import proofs.«103145_j64630667870263_1_alg».proof.Proof.RealSums

noncomputable section

namespace Cert.Lane.Bridge

open Finset Idealize.ShloMosaic Idealize.ShloMosaic.ValueIdx

/-! ## The constants are real numbers -/

/-- The shift ε is a real number. -/
theorem eps_real : ∃ e : ℝ, eps = (e : EReal) := by
  unfold eps
  simp [Ideal.ofBits, Ideal.ieee, -EReal.coe_mul]

/-- The word of 1 is a real number. -/
theorem one_real : ∃ o : ℝ, one = (o : EReal) := by
  unfold one
  simp [Ideal.ofBits, Ideal.ieee, -EReal.coe_mul]

/-! ## Each cross-entropy term is a real number when its logarithms' arguments are positive -/

/-- The logarithm of a positive real, read on the extended reals, is the real logarithm. -/
theorem log_real {x : ℝ} (hx : 0 < x) : Ideal.log (x : EReal) = ((Real.log x : ℝ) : EReal) := by
  rw [Ideal.log_coe, if_neg (not_le.mpr hx)]

/-- A visibility term with real prediction and truth, and both logarithms taken at positive arguments, is real. -/
theorem vis_real (x y : EReal) (hx : ∃ r : ℝ, x = (r : EReal)) (hy : ∃ r : ℝ, y = (r : EReal))
    (h1 : 0 < x + eps) (h2 : 0 < one - x + eps) : ∃ v : ℝ, vis x y = (v : EReal) := by
  obtain ⟨p, rfl⟩ := hx
  obtain ⟨g, rfl⟩ := hy
  obtain ⟨e, he⟩ := eps_real
  obtain ⟨o, ho⟩ := one_real
  unfold vis
  rw [he] at h1 h2 ⊢
  rw [ho] at h2 ⊢
  have h1' : 0 < p + e := by exact_mod_cast h1
  have h2' : 0 < o - p + e := by exact_mod_cast h2
  have e1 : Ideal.log ((p : EReal) + (e : EReal)) = ((Real.log (p + e) : ℝ) : EReal) := by
    rw [← EReal.coe_add, log_real h1']
  have e2 : Ideal.log ((o : EReal) - (p : EReal) + (e : EReal)) = ((Real.log (o - p + e) : ℝ) : EReal) := by
    rw [← EReal.coe_sub, ← EReal.coe_add, log_real h2']
  refine ⟨g * Real.log (p + e) + (o - g + e) * Real.log (o - p + e), ?_⟩
  rw [e1, e2]
  push_cast
  rfl

/-- A class term with real prediction and truth, and both logarithms taken at positive arguments, is real. -/
theorem cls_real (x y : EReal) (hx : ∃ r : ℝ, x = (r : EReal)) (hy : ∃ r : ℝ, y = (r : EReal))
    (h1 : 0 < x + eps) (h2 : 0 < one - x + eps) : ∃ c : ℝ, cls x y = (c : EReal) := by
  obtain ⟨p, rfl⟩ := hx
  obtain ⟨g, rfl⟩ := hy
  obtain ⟨e, he⟩ := eps_real
  obtain ⟨o, ho⟩ := one_real
  unfold cls
  rw [he] at h1 h2 ⊢
  rw [ho] at h2 ⊢
  have h1' : 0 < p + e := by exact_mod_cast h1
  have h2' : 0 < o - p + e := by exact_mod_cast h2
  have e1 : Ideal.log ((p : EReal) + (e : EReal)) = ((Real.log (p + e) : ℝ) : EReal) := by
    rw [← EReal.coe_add, log_real h1']
  have e2 : Ideal.log ((o : EReal) - (p : EReal) + (e : EReal)) = ((Real.log (o - p + e) : ℝ) : EReal) := by
    rw [← EReal.coe_sub, ← EReal.coe_add, log_real h2']
  refine ⟨g * Real.log (p + e) + (o - g) * Real.log (o - p + e), ?_⟩
  rw [e1, e2]
  push_cast
  rfl

/-! ## Tiles of the sample axis -/

/-- Sample 128 b + r of the whole array is sample r of tile b. -/
def smp (b : Fin 64) (r : Fin 128) : Fin 8192 := ⟨128 * b.val + r.val, by have := b.isLt; have := r.isLt; omega⟩

theorem visAt_blk (P Q : Lanes 8192) (b : Fin 64) (r : Fin 128) (a : Fin 26) (t : Fin 3) (k : Fin 10) :
    visAt (blk P b) (blk Q b) r a t k = visAt P Q (smp b r) a t k := rfl

theorem clsAt_blk (P Q : Lanes 8192) (b : Fin 64) (r : Fin 128) (a : Fin 26) (t : Fin 3) :
    clsAt (blk P b) (blk Q b) r a t = clsAt P Q (smp b r) a t := rfl

theorem l1At_blk (P Q : Lanes 8192) (b : Fin 64) (r : Fin 128) (a : Fin 26) (t : Fin 3) (k : Fin 10) (j : Fin 20) :
    l1At (blk P b) (blk Q b) r a t k j = l1At P Q (smp b r) a t k j := rfl

/-- A sum over an axis of extent A · B, position B a + b being position b of tile a, is the sum over the tiles of the sums
    inside each tile; the positions are named by any function with those values. -/
theorem sum_blocks {M : Type*} [AddCommMonoid M] {N : ℕ} (A B : ℕ) (hN : N = A * B) (idx : Fin A → Fin B → Fin N)
    (hidx : ∀ a b, (idx a b).val = B * a.val + b.val) (G : Fin N → M) :
    ∑ n : Fin N, G n = ∑ a : Fin A, ∑ b : Fin B, G (idx a b) := by
  subst hN
  rw [RowBlocks.sum_tiles A B G]
  refine Finset.sum_congr rfl fun a _ => Finset.sum_congr rfl fun b _ => ?_
  congr 1
  apply Fin.ext
  rw [hidx]
  show b.val + B * a.val = B * a.val + b.val
  exact Nat.add_comm _ _

/-- The 8192 samples are the 64 tiles of 128. -/
theorem sum_smp {M : Type*} [AddCommMonoid M] (G : Fin 8192 → M) :
    ∑ n : Fin 8192, G n = ∑ b : Fin 64, ∑ r : Fin 128, G (smp b r) :=
  sum_blocks 64 128 (by norm_num) smp (fun _ _ => rfl) G

/-- In a commutative additive monoid: adding, tile by tile, the three lane types' sums one after the other to zero and
    summing the tiles gives zero plus the sum over every sample, anchor and type at once. -/
theorem tile3_add {M : Type*} [AddCommMonoid M] (W : Fin 8192 → Fin 26 → Fin 3 → M) :
    ∑ b : Fin 64, (((0 + ∑ r : Fin 128, ∑ a : Fin 26, W (smp b r) a 0) + ∑ r : Fin 128, ∑ a : Fin 26, W (smp b r) a 1)
        + ∑ r : Fin 128, ∑ a : Fin 26, W (smp b r) a 2)
      = 0 + ∑ n : Fin 8192, ∑ a : Fin 26, ∑ t : Fin 3, W n a t := by
  rw [sum_smp (fun n => ∑ a : Fin 26, ∑ t : Fin 3, W n a t), zero_add]
  refine Finset.sum_congr rfl fun b _ => ?_
  rw [zero_add, ← Finset.sum_add_distrib, ← Finset.sum_add_distrib]
  refine Finset.sum_congr rfl fun r _ => ?_
  rw [← Finset.sum_add_distrib, ← Finset.sum_add_distrib]
  refine Finset.sum_congr rfl fun a _ => ?_
  rw [Fin.sum_univ_three]

/-- Over the reals: subtracting, tile by tile, the three lane types' sums one after the other from zero and summing the
    tiles gives minus the sum over every sample, anchor and type at once. -/
theorem tile3_sub_real (w : Fin 8192 → Fin 26 → Fin 3 → ℝ) :
    ∑ b : Fin 64, (((0 - ∑ r : Fin 128, ∑ a : Fin 26, w (smp b r) a 0) - ∑ r : Fin 128, ∑ a : Fin 26, w (smp b r) a 1)
        - ∑ r : Fin 128, ∑ a : Fin 26, w (smp b r) a 2)
      = -(0 + ∑ n : Fin 8192, ∑ a : Fin 26, ∑ t : Fin 3, w n a t) := by
  rw [← tile3_add w, ← Finset.sum_neg_distrib]
  refine Finset.sum_congr rfl fun b _ => ?_
  ring

/-- The same on the extended reals, when every summand is a real number: there negation and subtraction pass through
    the sums as they do over the reals. -/
theorem tile3_sub (W : Fin 8192 → Fin 26 → Fin 3 → EReal) (hW : ∀ n a t, ∃ w : ℝ, W n a t = (w : EReal)) :
    ∑ b : Fin 64, (((0 - ∑ r : Fin 128, ∑ a : Fin 26, W (smp b r) a 0) - ∑ r : Fin 128, ∑ a : Fin 26, W (smp b r) a 1)
        - ∑ r : Fin 128, ∑ a : Fin 26, W (smp b r) a 2)
      = -(0 + ∑ n : Fin 8192, ∑ a : Fin 26, ∑ t : Fin 3, W n a t) := by
  choose w hw using hW
  have hc : ∀ x y z : ℝ, (((0 : EReal) - (x : EReal)) - (y : EReal)) - (z : EReal) = ((((0 - x) - y) - z : ℝ) : EReal) := by
    intro x y z; push_cast; rfl
  have hr : ∀ s : ℝ, -((0 : EReal) + (s : EReal)) = ((-(0 + s) : ℝ) : EReal) := by
    intro s; push_cast; rfl
  simp only [hw, RealSums.coe_sum, hc, hr]
  exact congrArg _ (tile3_sub_real w)

/-! ## The twenty offsets, masked by the ten visibilities -/

/-- Offset slot j is masked by visibility slot j modulo ten: summing over the twenty offsets is summing, over the ten
    visibilities k, the two offsets k and 10 + k. -/
theorem sum_slot {M : Type*} [AddCommMonoid M] (F : Fin 10 → Fin 20 → M) :
    ∑ j : Fin 20, F (slot j) j = ∑ k : Fin 10, (F k (lo k) + F k (hi k)) := by
  have h := Fin.sum_univ_add (a := 10) (b := 10) (fun j : Fin (10 + 10) => F (slot j) j)
  have hlo : ∀ k : Fin 10, F (slot (Fin.castAdd 10 k)) (Fin.castAdd 10 k) = F k (lo k) := by
    intro k
    have e1 : slot (Fin.castAdd 10 k) = k := Fin.ext (Nat.mod_eq_of_lt k.isLt)
    have e2 : (Fin.castAdd 10 k : Fin 20) = lo k := rfl
    rw [e1, e2]
  have hhi : ∀ k : Fin 10, F (slot (Fin.natAdd 10 k)) (Fin.natAdd 10 k) = F k (hi k) := by
    intro k
    have e1 : slot (Fin.natAdd 10 k) = k := by
      apply Fin.ext
      show (10 + k.val) % 10 = k.val
      have := k.isLt
      omega
    have e2 : (Fin.natAdd 10 k : Fin 20) = hi k := rfl
    rw [e1, e2]
  rw [Finset.sum_add_distrib]
  exact h.trans (congrArg₂ (· + ·) (Finset.sum_congr rfl fun k _ => hlo k) (Finset.sum_congr rfl fun k _ => hhi k))

/-! ## The three results -/

/-- The offset result: a re-indexing in the commutative additive monoid of the extended reals; no realness is needed. -/
theorem tiled_eq_whole2 (P Q : Lanes 8192) : tLoss2 P Q = wLoss2 P Q := by
  have hs : ∀ (n : Fin 8192) (a : Fin 26) (t : Fin 3),
      ∑ j : Fin 20, l1At P Q n a t (slot j) j = ∑ k : Fin 10, (l1At P Q n a t k (lo k) + l1At P Q n a t k (hi k)) :=
    fun n a t => sum_slot (fun k j => l1At P Q n a t k j)
  unfold tLoss2 wLoss2
  simp only [tileL1, l1At_blk, hs]
  exact tile3_add (fun n a t => ∑ k : Fin 10, (l1At P Q n a t k (lo k) + l1At P Q n a t k (hi k)))

/-- The class result. -/
theorem tiled_eq_whole1 (P Q : Lanes 8192)
    (hP : ∀ i, ∃ r : ℝ, P i = (r : EReal)) (hQ : ∀ i, ∃ r : ℝ, Q i = (r : EReal))
    (hc1 : ∀ (n : Fin 8192) (a : Fin 26) (t : Fin 3), 0 < P (ix3 n a (pos t 30 (by omega))) + eps)
    (hc2 : ∀ (n : Fin 8192) (a : Fin 26) (t : Fin 3), 0 < one - P (ix3 n a (pos t 30 (by omega))) + eps) :
    tLoss1 P Q = wLoss1 P Q := by
  have hc : ∀ (n : Fin 8192) (a : Fin 26) (t : Fin 3), ∃ c : ℝ, clsAt P Q n a t = (c : EReal) :=
    fun n a t => cls_real _ _ (hP _) (hQ _) (hc1 n a t) (hc2 n a t)
  unfold tLoss1 wLoss1
  simp only [tileCls, clsAt_blk]
  exact tile3_sub (fun n a t => clsAt P Q n a t) hc

/-- The visibility result. -/
theorem tiled_eq_whole0 (P Q : Lanes 8192)
    (hP : ∀ i, ∃ r : ℝ, P i = (r : EReal)) (hQ : ∀ i, ∃ r : ℝ, Q i = (r : EReal))
    (hv1 : ∀ (n : Fin 8192) (a : Fin 26) (t : Fin 3) (k : Fin 10), 0 < P (ix3 n a (pos t (20 + k.val) (by have := k.isLt; omega))) + eps)
    (hv2 : ∀ (n : Fin 8192) (a : Fin 26) (t : Fin 3) (k : Fin 10), 0 < one - P (ix3 n a (pos t (20 + k.val) (by have := k.isLt; omega))) + eps) :
    tLoss0 P Q = wLoss0 P Q := by
  have hv : ∀ (n : Fin 8192) (a : Fin 26) (t : Fin 3) (k : Fin 10), ∃ v : ℝ, visAt P Q n a t k = (v : EReal) :=
    fun n a t k => vis_real _ _ (hP _) (hQ _) (hv1 n a t k) (hv2 n a t k)
  have hW : ∀ (n : Fin 8192) (a : Fin 26) (t : Fin 3), ∃ w : ℝ, (∑ k : Fin 10, visAt P Q n a t k) = (w : EReal) := by
    intro n a t
    choose v hv' using hv
    exact ⟨∑ k : Fin 10, v n a t k, by simp only [hv', RealSums.coe_sum]⟩
  unfold tLoss0 wLoss0
  refine congrArg (fun x => Ideal.div x ten) ?_
  simp only [tileVis, visAt_blk]
  exact tile3_sub (fun n a t => ∑ k : Fin 10, visAt P Q n a t k) hW

/-- On real inputs whose logarithms are all taken at positive arguments, the tiled program's three results are the
    all-at-once program's. -/
theorem tiled_eq_whole (P Q : Lanes 8192)
    (hP : ∀ i, ∃ r : ℝ, P i = (r : EReal)) (hQ : ∀ i, ∃ r : ℝ, Q i = (r : EReal))
    (hv1 : ∀ (n : Fin 8192) (a : Fin 26) (t : Fin 3) (k : Fin 10), 0 < P (ix3 n a (pos t (20 + k.val) (by have := k.isLt; omega))) + eps)
    (hv2 : ∀ (n : Fin 8192) (a : Fin 26) (t : Fin 3) (k : Fin 10), 0 < one - P (ix3 n a (pos t (20 + k.val) (by have := k.isLt; omega))) + eps)
    (hc1 : ∀ (n : Fin 8192) (a : Fin 26) (t : Fin 3), 0 < P (ix3 n a (pos t 30 (by omega))) + eps)
    (hc2 : ∀ (n : Fin 8192) (a : Fin 26) (t : Fin 3), 0 < one - P (ix3 n a (pos t 30 (by omega))) + eps) :
    tLoss0 P Q = wLoss0 P Q ∧ tLoss1 P Q = wLoss1 P Q ∧ tLoss2 P Q = wLoss2 P Q :=
  ⟨tiled_eq_whole0 P Q hP hQ hv1 hv2, tiled_eq_whole1 P Q hP hQ hc1 hc2, tiled_eq_whole2 P Q⟩

end Cert.Lane.Bridge

end
-- ==== Proof.PreFacts.lean ====
/-
  What the precondition says about the two lane arrays.

  The precondition is a conjunction of ten "for every entry" tests and is assumed to come out true.  Its first two
  tests say that every entry x of the prediction array and of the ground-truth array satisfies |x| < +∞, where |x| is
  max x (−x); an extended real with that property is neither +∞ nor −∞, so it is a real number.  Its last four tests
  compare, entry by entry, the four quantities whose logarithms the all-at-once program takes,

      p_v + ε,    1 − p_v + ε,    p_c + ε,    1 − p_c + ε

  (p_v a visibility entry of the prediction, p_c a class entry, ε the shared small shift), with zero, and say each is
  greater.  These four arrays are built by the same reshape, the same slices and the same additions as the
  corresponding stages of the all-at-once program, so the tests speak about those stages directly.  The four tests in
  between concern the four short vectors and are not used.

  A conjunction of one-bit words is 1 exactly when every word is 1, and an "and" over all entries of an array of
  one-bit words is 1 only when every entry is 1; a comparison word is 1 exactly when the compared order relation holds.
-/
import proofs.«103145_j64630667870263_1_alg».proof.Defs
import proofs.«103145_j64630667870263_1_alg».proof.Proof.Gen.Pre_finite_inputs
import proofs.«103145_j64630667870263_1_alg».proof.Proof.Gen.ReferenceIdeal.Read
import Idealize.ShloMosaic.Lib.ReduceAll
import Idealize.ShloMosaic.Lib.ValueIdx
import Idealize.ShloMosaic.PureOps.Ideal.Laws

noncomputable section

namespace Cert.Lane.PreFacts

open Idealize.ShloMosaic Idealize.ShloMosaic.ValueIdx

/-- The shape with no axes has exactly one index. -/
instance : Subsingleton Cert.Pre_finite_inputs.S_.Idx := ⟨fun a b => funext fun d => d.elim0⟩

/-- The single-precision word with all exponent bits set and a zero significand denotes +∞. -/
theorem inf_word : Ideal.ofBits .f32 0x7F800000#32 = ⊤ := by simp [Ideal.ofBits, Ideal.ieee]

/-- An extended real whose absolute value max x (−x) is strictly below +∞ is a real number:
    for x = +∞ the maximum is +∞, for x = −∞ it is −(−∞) = +∞, and neither is below +∞. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- The test "x greater than the zero word" coming out 1 says 0 < x. -/
theorem pos_of_cmp_gt (x : EReal) (h : Ideal.cmp .ogt x (Ideal.ofBits .f32 0x00000000#32) = 1#1) : 0 < x := by
  rw [Ideal.ofBits_zero_f32] at h
  by_contra hn
  simp [Ideal.cmp, hn] at h

/-- The entrywise "and" of two arrays of one-bit words is 1 at an index exactly when both are. -/
theorem andi_at {s : Shape} (x y : IVec s 1) (i : s.Idx) : andi x y i = 1#1 ↔ x i = 1#1 ∧ y i = 1#1 :=
  IntOp.andi_eq_one

/-- From the precondition: every entry of both lane arrays is a real number, and each of the four arrays whose
    logarithm the all-at-once program takes is positive at every index. -/
theorem of_pre (P Q : FVec Ideal Cert.Pre_finite_inputs.S8192x26x93 .f32) (a2 a3 a4 a5 : FVec Ideal Cert.Pre_finite_inputs.S8192 .f32)
    (h : Cert.Pre_finite_inputs.fn (F := Ideal) P Q a2 a3 a4 a5 = fun _ => 1#1) :
    (∀ i, ∃ r : ℝ, P i = (r : EReal)) ∧ (∀ i, ∃ r : ℝ, Q i = (r : EReal))
    ∧ (∀ j, 0 < Cert.ReferenceIdeal.Read.val_main_v9 (F := Ideal) P j)
    ∧ (∀ j, 0 < Cert.ReferenceIdeal.Read.val_main_v19 (F := Ideal) P j)
    ∧ (∀ j, 0 < Cert.ReferenceIdeal.Read.val_main_v27 (F := Ideal) P j)
    ∧ (∀ j, 0 < Cert.ReferenceIdeal.Read.val_main_v35 (F := Ideal) P j) := by
  -- the result has one index; read the hypothesis there and lay the ten tests side by side
  have e := congrFun h ix0
  dsimp only [Cert.Pre_finite_inputs.fn, Cert.Pre_finite_inputs.fn_part1, Cert.Pre_finite_inputs.fn_part2,
    Cert.Pre_finite_inputs.fn_part3] at e
  -- a conjunction of one-bit words is 1 only when each of them is
  simp only [andi_at] at e
  obtain ⟨⟨⟨⟨⟨⟨⟨⟨⟨h1, h2⟩, -⟩, -⟩, -⟩, -⟩, h7⟩, h8⟩, h9⟩, h10⟩ := e
  -- each test is an "and" over every entry, so it holds at each entry; the compared arrays of the last four are,
  -- term for term, the stages p_v + ε, 1 − p_v + ε, p_c + ε, 1 − p_c + ε of the all-at-once program
  refine ⟨fun i => ?_, fun i => ?_, fun j => ?_, fun j => ?_, fun j => ?_, fun j => ?_⟩
  · exact real_of_abs_lt (P i) (Host.reduce_andi_all _ _ _ _ ix0 h1 i)
  · exact real_of_abs_lt (Q i) (Host.reduce_andi_all _ _ _ _ ix0 h2 i)
  · exact pos_of_cmp_gt _ (Host.reduce_andi_all _ _ _ _ ix0 h7 j)
  · exact pos_of_cmp_gt _ (Host.reduce_andi_all _ _ _ _ ix0 h8 j)
  · exact pos_of_cmp_gt _ (Host.reduce_andi_all _ _ _ _ ix0 h9 j)
  · exact pos_of_cmp_gt _ (Host.reduce_andi_all _ _ _ _ ix0 h10 j)

end Cert.Lane.PreFacts

end
-- ==== Proof.StepCls.lean ====
/-
  The class accumulator of the tiled program after one grid point, at the ideal values.

  A tile holds 128 samples × 26 anchors × 93 numbers.  For each lane type t the program cuts the one class column
  31 t + 30 out of the prediction tile (p) and the ground-truth tile (g), forms entry by entry
      g · log (p + ε) + (1 − g) · log (1 − p + ε),
  sums the [128, 26, 1] result down to one entry by the same three one-axis sums as the visibility terms (last axis —
  here of extent one —, anchors, samples; each followed by a cast that keeps the summed axis as a unit axis), and
  subtracts the three types' sums one after the other from zero.  The last statement adds that value to the
  accumulator's old contents.

  Read at the accumulator's one index this is  old + (((0 − S₀) − S₁) − S₂)  with  S_t = Σ_r Σ_a clsAt r a t:
  a slice reads the source at the shifted column, a pointwise operation acts at the index, the three-stage sum is the
  sum over every entry, and a sum over the one coordinate of a unit axis is its single term.
-/
import proofs.«103145_j64630667870263_1_alg».proof.Proof.KernelPieces
import proofs.«103145_j64630667870263_1_alg».proof.Proof.Spec
import proofs.«103145_j64630667870263_1_alg».proof.Proof.LibKeepdims3
import proofs.«103145_j64630667870263_1_alg».proof.Proof.StepVisCls
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StepIdeal3

open Cert.KernelIdeal Cert.KernelIdeal.Gen Cert.KernelIdeal.Pieces Cert.Lane Idealize.ShloMosaic Idealize.ShloMosaic.ValueIdx
open Cert.KernelIdeal.StepIdeal23

/-- The class terms of the one column `o` of a tile, formed entry by entry as the tiled program forms them:
    g · log (p + ε) + (1 − g) · log (1 − p + ε), with p the prediction column and g the ground-truth column. -/
def clsW (o : ℕ) (h : S128x26x93.Slices ![0, 0, o] S128x26x1) (x0 x1 : Vec Ideal S128x26x93 .f32) :
    FVec Ideal S128x26x1 .f32 :=
  addf
    (mulf (extractStridedSlice S128x26x1 ![0, 0, o] x1 h)
      (log (addf (extractStridedSlice S128x26x1 ![0, 0, o] x0 h) (broadcast S128x26x1 (Scalar.ofBits .f32 0x3089705F#32)))))
    (mulf
      (subf (broadcast S128x26x1 (Scalar.ofBits .f32 0x3F800000#32)) (extractStridedSlice S128x26x1 ![0, 0, o] x1 h))
      (log
        (addf (subf (broadcast S128x26x1 (Scalar.ofBits .f32 0x3F800000#32)) (extractStridedSlice S128x26x1 ![0, 0, o] x0 h))
          (broadcast S128x26x1 (Scalar.ofBits .f32 0x3089705F#32)))))

/-- At (r, a, 0) it is the class term of lane type t, when the column is 31 t + 30. -/
theorem clsW_apply (o : ℕ) (t : Fin 3) (ho : o = 31 * t.val + 30) (h : S128x26x93.Slices ![0, 0, o] S128x26x1)
    (x0 x1 : Vec Ideal S128x26x93 .f32) (r : Fin 128) (a : Fin 26) :
    clsW o h x0 x1 (ix3 r a (0 : Fin 1)) = clsAt x0 x1 r a t := by
  have hq : (pos t 30 (by omega)).val = o + (0 : Fin 1).val := by
    show 31 * t.val + 30 = o + 0
    omega
  have e0 := slice3_axis2_apply o x0 h r a (0 : Fin 1) _ hq
  have e1 := slice3_axis2_apply o x1 h r a (0 : Fin 1) _ hq
  unfold clsAt cls
  rw [← e0, ← e1]
  rfl

/-- The first lane type's stage: zero minus the sum of its class terms. -/
theorem pay14_eq (x0 x1 : Vec Ideal S128x26x93 .f32) :
    k0_pay14 (F := Ideal) k0_pay5 (k0_pay10 x0) (k0_pay11 x1) k0_pay13
      = subf (broadcast S1x1 (Scalar.ofBits .f32 0x00000000#32))
          (sum3 (clsW 30 slices_S128x26x93_o0_0_30_S128x26x1 x0 x1) reduces_S128x26x1_S128x26) := rfl

/-- The second lane type's stage: the running value minus the sum of its class terms. -/
theorem pay24_eq (v57 : FVec Ideal S1x1 .f32) (x0 x1 : Vec Ideal S128x26x93 .f32) :
    k0_pay24 (F := Ideal) v57 (k0_pay20 x0) (k0_pay21 x1)
      = subf v57 (sum3 (clsW 61 slices_S128x26x93_o0_0_61_S128x26x1 x0 x1) reduces_S128x26x1_S128x26) := rfl

/-- The third lane type's stage, and the addition of the result to the accumulator's old contents. -/
theorem pay38_eq (v127 : FVec Ideal S1x1 .f32) (x0 x1 : Vec Ideal S128x26x93 .f32) (xo : Vec Ideal S1x1 .f32) :
    k0_pay38 (F := Ideal) v127 (k0_pay32 x0) (k0_pay33 x1) (k0_pay35 x0 x1) (FloatOps.ofBits .f32 0x3F800000#32) xo
      = addf (shapeCast S1x1 xo shapeCasts_S1x1_S1x1)
          (subf v127 (sum3 (clsW 92 slices_S128x26x93_o0_0_92_S128x26x1 x0 x1) reduces_S128x26x1_S128x26)) := rfl

/-- The sum of a lane type's class terms over the tile. -/
theorem sum3_clsW (o : ℕ) (t : Fin 3) (ho : o = 31 * t.val + 30) (h : S128x26x93.Slices ![0, 0, o] S128x26x1)
    (x0 x1 : Vec Ideal S128x26x93 .f32) (j : S1x1.Idx) :
    sum3 (clsW o h x0 x1) reduces_S128x26x1_S128x26 j = ∑ r : Fin 128, ∑ a : Fin 26, clsAt x0 x1 r a t := by
  refine (sum3_apply _ _ j).trans ?_
  refine Finset.sum_congr rfl fun r _ => Finset.sum_congr rfl fun a _ => ?_
  refine (Fin.sum_univ_one _).trans ?_
  exact clsW_apply o t ho h x0 x1 r a

/-- The class accumulator after a grid point: its old contents plus the tile's value. -/
theorem step3_apply (x0 x1 : Vec Ideal S128x26x93 .f32) (xo : Vec Ideal S1x1 .f32) (j : S1x1.Idx) :
    step3 (F := Ideal) x0 x1 xo j = xo j + tileCls x0 x1 := by
  unfold step3
  rw [pay14_eq, pay24_eq, pay38_eq]
  show shapeCast S1x1 xo shapeCasts_S1x1_S1x1 j
      + (((Ideal.ofBits .f32 0x00000000#32
            - sum3 (clsW 30 slices_S128x26x93_o0_0_30_S128x26x1 x0 x1) reduces_S128x26x1_S128x26 j)
          - sum3 (clsW 61 slices_S128x26x93_o0_0_61_S128x26x1 x0 x1) reduces_S128x26x1_S128x26 j)
        - sum3 (clsW 92 slices_S128x26x93_o0_0_92_S128x26x1 x0 x1) reduces_S128x26x1_S128x26 j) = _
  rw [shapeCast_self_apply, Ideal.ofBits_zero_f32, sum3_clsW 30 0 (by decide), sum3_clsW 61 1 (by decide),
    sum3_clsW 92 2 (by decide)]
  rfl

end Cert.KernelIdeal.StepIdeal3

end
-- ==== Proof.Claims.lean ====
/-
  The five claims, assembled.

  The frames of the two tiled programs are their runs; the all-at-once program's frame is its run with the results
  dropped; nothing was rewritten between the word-level tiled program and its exact reading.  For the equality of
  results: the precondition makes every input entry a real number and each of the four logarithm arguments positive;
  under that the tiled and the all-at-once forms of the three losses agree; the tiled program's results are the
  tiled forms, the all-at-once program's results the all-at-once forms, of arguments that agree.
-/
import proofs.«103145_j64630667870263_1_alg».proof.Defs
import proofs.«103145_j64630667870263_1_alg».proof.Proof.Gen.Kernel.Frame
import proofs.«103145_j64630667870263_1_alg».proof.Proof.Gen.KernelIdeal.Frame
import proofs.«103145_j64630667870263_1_alg».proof.Proof.Gen.ReferenceIdeal.Run
import proofs.«103145_j64630667870263_1_alg».proof.Proof.Gen.ReferenceIdeal.Read
import proofs.«103145_j64630667870263_1_alg».proof.Proof.KernelResults
import proofs.«103145_j64630667870263_1_alg».proof.Proof.StepVisCls
import proofs.«103145_j64630667870263_1_alg».proof.Proof.StepL1
import proofs.«103145_j64630667870263_1_alg».proof.Proof.RefValue
import proofs.«103145_j64630667870263_1_alg».proof.Proof.Bridge
import proofs.«103145_j64630667870263_1_alg».proof.Proof.PreFacts
import proofs.«103145_j64630667870263_1_alg».proof.Proof.StepCls

noncomputable section

open Idealize.ShloMosaic Idealize.ShloMosaic.TcCoe Idealize.SL.Sem Idealize.ShloMosaic.ValueIdx

namespace Cert.Proof.Claims

open Cert.Lane

/-- The word-level program runs and keeps its arguments. -/
theorem frame_k : Cert.frame_Kernel := fun m ρ _ => Cert.Kernel.Gen.frame m ρ
/-- So does its exact reading. -/
theorem frame_ki : Cert.frame_KernelIdeal := fun m ρ _ => Cert.KernelIdeal.Gen.frame m ρ
/-- The all-at-once program's frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Nothing was rewritten between the word-level program and its exact reading. -/
theorem preserves : Cert.preserves_Kernel_KernelIdeal := trivial

/-- On inputs satisfying the precondition — every entry finite and each of the four logarithm arguments positive —
    every cross-entropy term is a real number, so negating a total equals accumulating negated partial sums, and the
    tiled and the all-at-once program end with the same four results. -/
theorem algebraic : Cert.algebraic_KernelIdeal_ReferenceIdeal := by
  intro m ρ m' ρ' hpre hagree
  refine ⟨fun c => addf (addf (Cert.KernelIdeal.Acc.r0 m c) (Cert.KernelIdeal.Acc.s3 m c)) (Cert.KernelIdeal.Acc.s4 m c),
    fun c => Cert.KernelIdeal.Acc.r0 m c, fun c => Cert.KernelIdeal.Acc.s3 m c, fun c => Cert.KernelIdeal.Acc.s4 m c,
    Cert.KernelIdeal.Acc.run (F := Ideal) m ρ, ?_⟩
  refine (θ_run Cert.ReferenceIdeal.defs _ _).mono (fun _ h c => ?_) (Cert.ReferenceIdeal.Value.run (F := Ideal) m' ρ')
  obtain ⟨h49, h25, h40, h47, hargs⟩ := h c
  obtain ⟨hP, hQ, h9, h19, h27, h35⟩ := Cert.Lane.PreFacts.of_pre _ _ _ _ _ _ (hpre c)
  have hv1 : ∀ (n : Fin 8192) (a : Fin 26) (t : Fin 3) (k : Fin 10),
      0 < Cert.KernelIdeal.Results.P m c (ix3 n a (pos t (20 + k.val) (by have := k.isLt; omega))) + eps :=
    fun n a t k => by rw [← Cert.Lane.RefValue.arg_v9 (Cert.KernelIdeal.Results.P m c) n a t k]; exact h9 _
  have hv2 : ∀ (n : Fin 8192) (a : Fin 26) (t : Fin 3) (k : Fin 10),
      0 < one - Cert.KernelIdeal.Results.P m c (ix3 n a (pos t (20 + k.val) (by have := k.isLt; omega))) + eps :=
    fun n a t k => by rw [← Cert.Lane.RefValue.arg_v19 (Cert.KernelIdeal.Results.P m c) n a t k]; exact h19 _
  have hc1 : ∀ (n : Fin 8192) (a : Fin 26) (t : Fin 3),
      0 < Cert.KernelIdeal.Results.P m c (ix3 n a (pos t 30 (by omega))) + eps :=
    fun n a t => by rw [← Cert.Lane.RefValue.arg_v27 (Cert.KernelIdeal.Results.P m c) n a t]; exact h27 _
  have hc2 : ∀ (n : Fin 8192) (a : Fin 26) (t : Fin 3),
      0 < one - Cert.KernelIdeal.Results.P m c (ix3 n a (pos t 30 (by omega))) + eps :=
    fun n a t => by rw [← Cert.Lane.RefValue.arg_v35 (Cert.KernelIdeal.Results.P m c) n a t]; exact h35 _
  obtain ⟨e0, e1, e2⟩ := Cert.Lane.Bridge.tiled_eq_whole (Cert.KernelIdeal.Results.P m c) (Cert.KernelIdeal.Results.Q m c)
    hP hQ hv1 hv2 hc1 hc2
  have k0 := Cert.KernelIdeal.Results.loss0 m Cert.KernelIdeal.StepIdeal23.step2_apply Cert.KernelIdeal.StepIdeal3.step3_apply Cert.KernelIdeal.StepIdeal4.step4_apply c
  have k1 := Cert.KernelIdeal.Results.loss1 m Cert.KernelIdeal.StepIdeal23.step2_apply Cert.KernelIdeal.StepIdeal3.step3_apply Cert.KernelIdeal.StepIdeal4.step4_apply c
  have k2 := Cert.KernelIdeal.Results.loss2 m Cert.KernelIdeal.StepIdeal23.step2_apply Cert.KernelIdeal.StepIdeal3.step3_apply Cert.KernelIdeal.StepIdeal4.step4_apply c
  have kt := Cert.KernelIdeal.Results.total m Cert.KernelIdeal.StepIdeal23.step2_apply Cert.KernelIdeal.StepIdeal3.step3_apply Cert.KernelIdeal.StepIdeal4.step4_apply c
  refine ⟨h49.trans ?_, h25.trans ?_, h40.trans ?_, h47.trans ?_, hargs⟩
  · rw [Cert.ReferenceIdeal.Read.val_main_v49_eq, (hagree c).1, (hagree c).2.1]
    funext i
    rw [eq_ix0 i]
    exact (Cert.Lane.RefValue.total _ _).trans ((by rw [e0, e1, e2] : _ = _).symm.trans kt.symm)
  · rw [Cert.ReferenceIdeal.Read.val_main_v25_eq, (hagree c).1, (hagree c).2.1]
    funext i
    rw [eq_ix0 i]
    exact (Cert.Lane.RefValue.loss0 _ _).trans (e0.symm.trans k0.symm)
  · rw [Cert.ReferenceIdeal.Read.val_main_v40_eq, (hagree c).1, (hagree c).2.1]
    funext i
    rw [eq_ix0 i]
    exact (Cert.Lane.RefValue.loss1 _ _).trans (e1.symm.trans k1.symm)
  · rw [Cert.ReferenceIdeal.Read.val_main_v47_eq, (hagree c).1, (hagree c).2.1]
    funext i
    rw [eq_ix0 i]
    exact (Cert.Lane.RefValue.loss2 _ _).trans (e2.symm.trans k2.symm)

end Cert.Proof.Claims

end
-- ==== Proof.lean ====
/-
  The claim: a lane-line loss computed by a tiled program and by an all-at-once program.

  Inputs: predictions p and ground truth g, each [8192, 26, 93] = samples × anchors × (3 lane types × 31 entries:
  twenty offsets, ten visibilities, one class probability); four further vectors that neither program reads.
  Results, with ε the shared small shift and all sums over samples, anchors and lane types:

    loss0 = −( Σ over visibility entries of  g_v · log (p_v + ε) + (1 − g_v + ε) · log (1 − p_v + ε) ) / 10
    loss1 = −( Σ over class entries of       g_c · log (p_c + ε) + (1 − g_c) · log (1 − p_c + ε) )
    loss2 =    Σ over offset entries of      | g_c · g_v · (p_o − g_o) |
    total = (loss0 + loss1) + loss2.

  The all-at-once program forms each total in one reduction and negates it.  The tiled program walks the samples in
  64 tiles of 128; in a tile it subtracts the three lane types' sums, one after the other, from zero (adds them, for
  loss2), and adds the tile's value to a running one-entry accumulator that starts at zero; the host then divides
  the first accumulator by ten and adds the three.

  Over the extended reals a sum may not be negated term by term when it mixes +∞ and −∞, and a logarithm of a
  non-positive number is −∞ here; the statement therefore assumes, beyond finite inputs, that each of the four
  logarithm arguments p_v + ε, 1 − p_v + ε, p_c + ε, 1 − p_c + ε is positive — the domain on which the all-at-once
  program's own logarithms are defined.  Then every term is a real number and both forms are the same real sums
  (loss2 needs none of this: it is a re-indexing in a commutative monoid).

  The modules: Spec (both forms as functions of p and g), Bridge (they agree), PreFacts (what the precondition gives),
  RefValue (the all-at-once program's results are the one form), KernelPieces / KernelValue / KernelRun (what the
  tiled program's accumulators and results hold, for any reading of the floats), StepVisCls / StepCls / StepL1 (one
  accumulator step at the exact reading is "old + the tile's value"), TileIdx, KernelSum, KernelResults (so its results
  are the other form), Claims (the five claims).
-/
import proofs.«103145_j64630667870263_1_alg».proof.Proof.Claims
import proofs.«103145_j64630667870263_1_alg».proof.Proof.Gen.Kernel
import proofs.«103145_j64630667870263_1_alg».proof.Proof.Gen.KernelIdeal
import proofs.«103145_j64630667870263_1_alg».proof.Proof.Gen.ReferenceIdeal
import proofs.«103145_j64630667870263_1_alg».proof.Proof.Gen.Pre_finite_inputs

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
